-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v225) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S2000000x4 : Shape := ⟨2, ![2000000, 4]⟩
abbrev S2000000x1x3 : Shape := ⟨3, ![2000000, 1, 3]⟩
abbrev S2000000x15x3 : Shape := ⟨3, ![2000000, 15, 3]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S2000000x4 : S_.BroadcastsInDim S2000000x4 (![] : Fin 0 → Fin S2000000x4.rank)
  reducesTo_S2000000x4_S_d0_1 : S2000000x4.ReducesTo [0, 1] S_
  bcast_S_S2000000x1x3 : S_.BroadcastsInDim S2000000x1x3 (![] : Fin 0 → Fin S2000000x1x3.rank)
  reducesTo_S2000000x1x3_S_d0_1_2 : S2000000x1x3.ReducesTo [0, 1, 2] S_
  bcast_S_S2000000x15x3 : S_.BroadcastsInDim S2000000x15x3 (![] : Fin 0 → Fin S2000000x15x3.rank)
  reducesTo_S2000000x15x3_S_d0_1_2 : S2000000x15x3.ReducesTo [0, 1, 2] S_

variable [Facts]

def fn_part1 {F : FTy → Type} [FloatOps F] (main_arg4 : FVec F S2000000x3 .f32) (main_v13 : IVec S_ 1) (main_v16 : IVec S2000000x15x3 1) : IVec S_ 1 :=
  let main_c_5 : IVec S_ 1 := constantI S_ 1 1#1
  let main_v17 : IVec S_ 1 := (fun x v => Host.reduce IntOp.andi x v reducesTo_S2000000x15x3_S_d0_1_2 h_S_) main_v16 main_c_5
  let main_v18 : IVec S_ 1 := andi main_v13 main_v17
  let main_v19 : FVec F S2000000x3 .f32 := Host.absf main_arg4
  let main_cst_6 : FVec F S_ .f32 := constant S_ .f32 0x7F800000#32
  let main_v20 : FVec F S2000000x3 .f32 := broadcastInDim S2000000x3 ![] bcast_S_S2000000x3 main_cst_6
  let main_v21 : IVec S2000000x3 1 := cmpf .olt main_v19 main_v20
  let main_c_7 : IVec S_ 1 := constantI S_ 1 1#1
  let main_v22 : IVec S_ 1 := (fun x v => Host.reduce IntOp.andi x v reducesTo_S2000000x3_S_d0_1 h_S_) main_v21 main_c_7
  let main_v23 : IVec S_ 1 := andi main_v18 main_v22
  main_v23

def fn {F : FTy → Type} [FloatOps F] (main_arg0 : FVec F S2000000x3 .f32) (main_arg1 : FVec F S2000000x4 .f32) (main_arg2 : FVec F S2000000x1x3 .f32) (main_arg3 : FVec F S2000000x15x3 .f32) (main_arg4 : FVec F S2000000x3 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x4 .f32 := Host.absf main_arg1
  let main_cst_0 : FVec F S_ .f32 := constant S_ .f32 0x7F800000#32
  let main_v5 : FVec F S2000000x4 .f32 := broadcastInDim S2000000x4 ![] bcast_S_S2000000x4 main_cst_0
  let main_v6 : IVec S2000000x4 1 := cmpf .olt main_v4 main_v5
  let main_c_1 : IVec S_ 1 := constantI S_ 1 1#1
  let main_v7 : IVec S_ 1 := (fun x v => Host.reduce IntOp.andi x v reducesTo_S2000000x4_S_d0_1 h_S_) main_v6 main_c_1
  let main_v8 : IVec S_ 1 := andi main_v3 main_v7
  let main_v9 : FVec F S2000000x1x3 .f32 := Host.absf main_arg2
  let main_cst_2 : FVec F S_ .f32 := constant S_ .f32 0x7F800000#32
  let main_v10 : FVec F S2000000x1x3 .f32 := broadcastInDim S2000000x1x3 ![] bcast_S_S2000000x1x3 main_cst_2
  let main_v11 : IVec S2000000x1x3 1 := cmpf .olt main_v9 main_v10
  let main_c_3 : IVec S_ 1 := constantI S_ 1 1#1
  let main_v12 : IVec S_ 1 := (fun x v => Host.reduce IntOp.andi x v reducesTo_S2000000x1x3_S_d0_1_2 h_S_) main_v11 main_c_3
  let main_v13 : IVec S_ 1 := andi main_v8 main_v12
  let main_v14 : FVec F S2000000x15x3 .f32 := Host.absf main_arg3
  let main_cst_4 : FVec F S_ .f32 := constant S_ .f32 0x7F800000#32
  let main_v15 : FVec F S2000000x15x3 .f32 := broadcastInDim S2000000x15x3 ![] bcast_S_S2000000x15x3 main_cst_4
  let main_v16 : IVec S2000000x15x3 1 := cmpf .olt main_v14 main_v15
  fn_part1 (F := F) main_arg4 main_v13 main_v16
-- ==== Kernel.lean ====
abbrev S2000000x3 : Shape := ⟨2, ![2000000, 3]⟩
abbrev S2000000x4 : Shape := ⟨2, ![2000000, 4]⟩
abbrev S2000000x1x3 : Shape := ⟨3, ![2000000, 1, 3]⟩
abbrev S2000000x15x3 : Shape := ⟨3, ![2000000, 15, 3]⟩
abbrev S3x2000000 : Shape := ⟨2, ![3, 2000000]⟩
abbrev S4x2000000 : Shape := ⟨2, ![4, 2000000]⟩
abbrev S2000000x45 : Shape := ⟨2, ![2000000, 45]⟩
abbrev S45x2000000 : Shape := ⟨2, ![45, 2000000]⟩
abbrev S_ : Shape := ⟨0, ![]⟩
abbrev S3x2015232 : Shape := ⟨2, ![3, 2015232]⟩
abbrev S3x15744x128 : Shape := ⟨3, ![3, 15744, 128]⟩
abbrev S4x2015232 : Shape := ⟨2, ![4, 2015232]⟩
abbrev S4x15744x128 : Shape := ⟨3, ![4, 15744, 128]⟩
abbrev S45x2015232 : Shape := ⟨2, ![45, 2015232]⟩
abbrev S45x15744x128 : Shape := ⟨3, ![45, 15744, 128]⟩
abbrev S9x15744x128 : Shape := ⟨3, ![9, 15744, 128]⟩
abbrev S3x128x128 : Shape := ⟨3, ![3, 128, 128]⟩
abbrev S4x128x128 : Shape := ⟨3, ![4, 128, 128]⟩
abbrev S45x128x128 : Shape := ⟨3, ![45, 128, 128]⟩
abbrev S9x128x128 : Shape := ⟨3, ![9, 128, 128]⟩
abbrev S1x128x128 : Shape := ⟨3, ![1, 128, 128]⟩
abbrev S128x128 : Shape := ⟨2, ![128, 128]⟩
abbrev S9x2015232 : Shape := ⟨2, ![9, 2015232]⟩
abbrev S9x2000000 : Shape := ⟨2, ![9, 2000000]⟩
abbrev S3x3x2000000 : Shape := ⟨3, ![3, 3, 2000000]⟩
abbrev S2000000x3x3 : Shape := ⟨3, ![2000000, 3, 3]⟩

abbrev nBuf : Space → Nat
  | .hbm => 41
  | .vmem => 14
  | .smem => 0
  | _ => 0

abbrev bufTy : (tb : Table) → Fin (tcTables nBuf tb) → BufTy
  | .hbm, ⟨0, _⟩ => ⟨S2000000x3, .f32⟩
  | .hbm, ⟨1, _⟩ => ⟨S2000000x4, .f32⟩
  | .hbm, ⟨2, _⟩ => ⟨S2000000x1x3, .f32⟩
  | .hbm, ⟨3, _⟩ => ⟨S2000000x15x3, .f32⟩
  | .hbm, ⟨4, _⟩ => ⟨S2000000x3, .f32⟩
  | .hbm, ⟨5, _⟩ => ⟨S3x2000000, .f32⟩
  | .hbm, ⟨6, _⟩ => ⟨S4x2000000, .f32⟩
  | .hbm, ⟨7, _⟩ => ⟨S2000000x3, .f32⟩
  | .hbm, ⟨8, _⟩ => ⟨S3x2000000, .f32⟩
  | .hbm, ⟨9, _⟩ => ⟨S2000000x45, .f32⟩
  | .hbm, ⟨10, _⟩ => ⟨S45x2000000, .f32⟩
  | .hbm, ⟨11, _⟩ => ⟨S3x2000000, .f32⟩
  | .hbm, ⟨12, _⟩ => ⟨S_, .i32⟩
  | .hbm, ⟨13, _⟩ => ⟨S_, .f32⟩
  | .hbm, ⟨14, _⟩ => ⟨S3x2015232, .f32⟩
  | .hbm, ⟨15, _⟩ => ⟨S3x15744x128, .f32⟩
  | .hbm, ⟨16, _⟩ => ⟨S_, .i32⟩
  | .hbm, ⟨17, _⟩ => ⟨S_, .f32⟩
  | .hbm, ⟨18, _⟩ => ⟨S4x2015232, .f32⟩
  | .hbm, ⟨19, _⟩ => ⟨S4x15744x128, .f32⟩
  | .hbm, ⟨20, _⟩ => ⟨S_, .i32⟩
  | .hbm, ⟨21, _⟩ => ⟨S_, .f32⟩
  | .hbm, ⟨22, _⟩ => ⟨S3x2015232, .f32⟩
  | .hbm, ⟨23, _⟩ => ⟨S3x15744x128, .f32⟩
  | .hbm, ⟨24, _⟩ => ⟨S_, .i32⟩
  | .hbm, ⟨25, _⟩ => ⟨S_, .f32⟩
  | .hbm, ⟨26, _⟩ => ⟨S45x2015232, .f32⟩
  | .hbm, ⟨27, _⟩ => ⟨S45x15744x128, .f32⟩
  | .hbm, ⟨28, _⟩ => ⟨S_, .i32⟩
  | .hbm, ⟨29, _⟩ => ⟨S_, .f32⟩
  | .hbm, ⟨30, _⟩ => ⟨S3x2015232, .f32⟩
  | .hbm, ⟨31, _⟩ => ⟨S3x15744x128, .f32⟩
  | .hbm, ⟨32, _⟩ => ⟨S9x15744x128, .f32⟩
  | .hbm, ⟨33, _⟩ => ⟨S3x15744x128, .f32⟩
  | .hbm, ⟨34, _⟩ => ⟨S9x2015232, .f32⟩
  | .hbm, ⟨35, _⟩ => ⟨S9x2000000, .f32⟩
  | .hbm, ⟨36, _⟩ => ⟨S3x2015232, .f32⟩
  | .hbm, ⟨37, _⟩ => ⟨S3x2000000, .f32⟩
  | .hbm, ⟨38, _⟩ => ⟨S3x3x2000000, .f32⟩
  | .hbm, ⟨39, _⟩ => ⟨S2000000x3x3, .f32⟩
  | .hbm, ⟨40, _⟩ => ⟨S2000000x3, .f32⟩
  | .local _ .vmem, ⟨0, _⟩ => ⟨S3x128x128, .f32⟩
  | .local _ .vmem, ⟨1, _⟩ => ⟨S3x128x128, .f32⟩
  | .local _ .vmem, ⟨2, _⟩ => ⟨S4x128x128, .f32⟩
  | .local _ .vmem, ⟨3, _⟩ => ⟨S4x128x128, .f32⟩
  | .local _ .vmem, ⟨4, _⟩ => ⟨S3x128x128, .f32⟩
  | .local _ .vmem, ⟨5, _⟩ => ⟨S3x128x128, .f32⟩
  | .local _ .vmem, ⟨6, _⟩ => ⟨S45x128x128, .f32⟩
  | .local _ .vmem, ⟨7, _⟩ => ⟨S45x128x128, .f32⟩
  | .local _ .vmem, ⟨8, _⟩ => ⟨S3x128x128, .f32⟩
  | .local _ .vmem, ⟨9, _⟩ => ⟨S3x128x128, .f32⟩
  | .local _ .vmem, ⟨10, _⟩ => ⟨S9x128x128, .f32⟩
  | .local _ .vmem, ⟨11, _⟩ => ⟨S9x128x128, .f32⟩
  | .local _ .vmem, ⟨12, _⟩ => ⟨S3x128x128, .f32⟩
  | .local _ .vmem, ⟨13, _⟩ => ⟨S3x128x128, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_call3_v0 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_call4_v0 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![123], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S45x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S9x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S2000000x3_S3x2000000_1_0 : S2000000x3.Transposes [1, 0] S3x2000000
  transposes_S2000000x4_S4x2000000_1_0 : S2000000x4.Transposes [1, 0] S4x2000000
  shapeCasts_S2000000x1x3_S2000000x3 : S2000000x1x3.ShapeCasts S2000000x3
  shapeCasts_S2000000x15x3_S2000000x45 : S2000000x15x3.ShapeCasts S2000000x45
  transposes_S2000000x45_S45x2000000_1_0 : S2000000x45.Transposes [1, 0] S45x2000000
  pads_S3x2000000_S3x2015232_000_0152320 : S3x2000000.Pads (![0, 0] : Fin 2 → Nat) ![0, 15232] ![0, 0] S3x2015232
  h_S_ : 0 < S_.numel
  shapeCasts_S3x2015232_S3x15744x128 : S3x2015232.ShapeCasts S3x15744x128
  pads_S4x2000000_S4x2015232_000_0152320 : S4x2000000.Pads (![0, 0] : Fin 2 → Nat) ![0, 15232] ![0, 0] S4x2015232
  shapeCasts_S4x2015232_S4x15744x128 : S4x2015232.ShapeCasts S4x15744x128
  pads_S45x2000000_S45x2015232_000_0152320 : S45x2000000.Pads (![0, 0] : Fin 2 → Nat) ![0, 15232] ![0, 0] S45x2015232
  shapeCasts_S45x2015232_S45x15744x128 : S45x2015232.ShapeCasts S45x15744x128
  inb_S3x128x128_S3x128x128_0_0_0 : ∀ a, (![0, 0, 0] : Fin 3 → Nat) a + S3x128x128.size a ≤ S3x128x128.size a
  h_S3x128x128 : 0 < S3x128x128.numel
  shapeCasts_S3x128x128_S3x128x128 : S3x128x128.ShapeCasts S3x128x128
  slices_S3x128x128_o0_0_0_S1x128x128 : S3x128x128.Slices ![0, 0, 0] S1x128x128
  shapeCasts_S1x128x128_S128x128 : S1x128x128.ShapeCasts S128x128
  slices_S3x128x128_o1_0_0_S1x128x128 : S3x128x128.Slices ![1, 0, 0] S1x128x128
  slices_S3x128x128_o2_0_0_S1x128x128 : S3x128x128.Slices ![2, 0, 0] S1x128x128
  inb_S4x128x128_S4x128x128_0_0_0 : ∀ a, (![0, 0, 0] : Fin 3 → Nat) a + S4x128x128.size a ≤ S4x128x128.size a
  h_S4x128x128 : 0 < S4x128x128.numel
  shapeCasts_S4x128x128_S4x128x128 : S4x128x128.ShapeCasts S4x128x128
  slices_S4x128x128_o0_0_0_S1x128x128 : S4x128x128.Slices ![0, 0, 0] S1x128x128
  slices_S4x128x128_o1_0_0_S1x128x128 : S4x128x128.Slices ![1, 0, 0] S1x128x128
  slices_S4x128x128_o2_0_0_S1x128x128 : S4x128x128.Slices ![2, 0, 0] S1x128x128
  slices_S4x128x128_o3_0_0_S1x128x128 : S4x128x128.Slices ![3, 0, 0] S1x128x128
  inb_S9x128x128_S1x128x128_0_0_0 : ∀ a, (![0, 0, 0] : Fin 3 → Nat) a + S1x128x128.size a ≤ S9x128x128.size a
  h_S1x128x128 : 0 < S1x128x128.numel
  shapeCasts_S128x128_S1x128x128 : S128x128.ShapeCasts S1x128x128
  inb_S9x128x128_S1x128x128_1_0_0 : ∀ a, (![1, 0, 0] : Fin 3 → Nat) a + S1x128x128.size a ≤ S9x128x128.size a
  inb_S9x128x128_S1x128x128_2_0_0 : ∀ a, (![2, 0, 0] : Fin 3 → Nat) a + S1x128x128.size a ≤ S9x128x128.size a
  inb_S9x128x128_S1x128x128_3_0_0 : ∀ a, (![3, 0, 0] : Fin 3 → Nat) a + S1x128x128.size a ≤ S9x128x128.size a
  inb_S9x128x128_S1x128x128_4_0_0 : ∀ a, (![4, 0, 0] : Fin 3 → Nat) a + S1x128x128.size a ≤ S9x128x128.size a
  inb_S9x128x128_S1x128x128_5_0_0 : ∀ a, (![5, 0, 0] : Fin 3 → Nat) a + S1x128x128.size a ≤ S9x128x128.size a
  inb_S9x128x128_S1x128x128_6_0_0 : ∀ a, (![6, 0, 0] : Fin 3 → Nat) a + S1x128x128.size a ≤ S9x128x128.size a
  inb_S9x128x128_S1x128x128_7_0_0 : ∀ a, (![7, 0, 0] : Fin 3 → Nat) a + S1x128x128.size a ≤ S9x128x128.size a
  inb_S9x128x128_S1x128x128_8_0_0 : ∀ a, (![8, 0, 0] : Fin 3 → Nat) a + S1x128x128.size a ≤ S9x128x128.size a
  inb_S45x128x128_S45x128x128_0_0_0 : ∀ a, (![0, 0, 0] : Fin 3 → Nat) a + S45x128x128.size a ≤ S45x128x128.size a
  h_S45x128x128 : 0 < S45x128x128.numel
  shapeCasts_S45x128x128_S45x128x128 : S45x128x128.ShapeCasts S45x128x128
  slices_S45x128x128_o0_0_0_S3x128x128 : S45x128x128.Slices ![0, 0, 0] S3x128x128
  slices_S45x128x128_o3_0_0_S3x128x128 : S45x128x128.Slices ![3, 0, 0] S3x128x128
  slices_S45x128x128_o6_0_0_S3x128x128 : S45x128x128.Slices ![6, 0, 0] S3x128x128
  slices_S45x128x128_o9_0_0_S3x128x128 : S45x128x128.Slices ![9, 0, 0] S3x128x128
  slices_S45x128x128_o12_0_0_S3x128x128 : S45x128x128.Slices ![12, 0, 0] S3x128x128
  slices_S45x128x128_o15_0_0_S3x128x128 : S45x128x128.Slices ![15, 0, 0] S3x128x128
  slices_S45x128x128_o18_0_0_S3x128x128 : S45x128x128.Slices ![18, 0, 0] S3x128x128
  slices_S45x128x128_o21_0_0_S3x128x128 : S45x128x128.Slices ![21, 0, 0] S3x128x128
  slices_S45x128x128_o24_0_0_S3x128x128 : S45x128x128.Slices ![24, 0, 0] S3x128x128
  slices_S45x128x128_o27_0_0_S3x128x128 : S45x128x128.Slices ![27, 0, 0] S3x128x128
  slices_S45x128x128_o30_0_0_S3x128x128 : S45x128x128.Slices ![30, 0, 0] S3x128x128
  slices_S45x128x128_o33_0_0_S3x128x128 : S45x128x128.Slices ![33, 0, 0] S3x128x128
  slices_S45x128x128_o36_0_0_S3x128x128 : S45x128x128.Slices ![36, 0, 0] S3x128x128
  slices_S45x128x128_o39_0_0_S3x128x128 : S45x128x128.Slices ![39, 0, 0] S3x128x128
  slices_S45x128x128_o42_0_0_S3x128x128 : S45x128x128.Slices ![42, 0, 0] S3x128x128
  broadcasts_S1x128x128_S3x128x128 : S1x128x128.Broadcasts S3x128x128
  shapeCasts_S9x15744x128_S9x2015232 : S9x15744x128.ShapeCasts S9x2015232
  slices_S9x2015232_S9x2000000_0_0 : S9x2015232.Slices ![0, 0] S9x2000000
  shapeCasts_S3x15744x128_S3x2015232 : S3x15744x128.ShapeCasts S3x2015232
  slices_S3x2015232_S3x2000000_0_0 : S3x2015232.Slices ![0, 0] S3x2000000
  shapeCasts_S9x2000000_S3x3x2000000 : S9x2000000.ShapeCasts S3x3x2000000
  transposes_S3x3x2000000_S2000000x3x3_2_0_1 : S3x3x2000000.Transposes [2, 0, 1] S2000000x3x3
  transposes_S3x2000000_S2000000x3_1_0 : S3x2000000.Transposes [1, 0] S2000000x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x128x128.size a ≤ S3x15744x128.size a
  hwx0_0 : ∀ i : grid0.Coords, EltTy.bits .f32 = 32 ∨ (Rect.block (s := S3x15744x128) S3x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x128.size a ≤ S4x15744x128.size a
  hwx0_1 : ∀ i : grid0.Coords, EltTy.bits .f32 = 32 ∨ (Rect.block (s := S4x15744x128) S4x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x128x128.size a ≤ S3x15744x128.size a
  hwx0_2 : ∀ i : grid0.Coords, EltTy.bits .f32 = 32 ∨ (Rect.block (s := S3x15744x128) S3x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S45x128x128.size a ≤ S45x15744x128.size a
  hwx0_3 : ∀ i : grid0.Coords, EltTy.bits .f32 = 32 ∨ (Rect.block (s := S45x15744x128) S45x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x128x128.size a ≤ S3x15744x128.size a
  hwx0_4 : ∀ i : grid0.Coords, EltTy.bits .f32 = 32 ∨ (Rect.block (s := S3x15744x128) S3x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S9x128x128.size a ≤ S9x15744x128.size a
  hwx0_5 : ∀ i : grid0.Coords, EltTy.bits .f32 = 32 ∨ (Rect.block (s := S9x15744x128) S9x128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3x128x128.size a ≤ S3x15744x128.size a
  hwx0_6 : ∀ i : grid0.Coords, EltTy.bits .f32 = 32 ∨ (Rect.block (s := S3x15744x128) S3x128x128.size (cc0_transform_6 i) (hinb0_6 i)).WholeWords (EltTy.packing .f32)

variable [Facts₀]

abbrev win0_0 : Pipeline.Window sig grid0 :=
  Pipeline.Window.ofSpec (Memref.whole main_v8) S3x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S3x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S45x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S3x128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S9x128x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S3x128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S2000000x4 : Shape := ⟨2, ![2000000, 4]⟩
abbrev S2000000x1x3 : Shape := ⟨3, ![2000000, 1, 3]⟩
abbrev S2000000x15x3 : Shape := ⟨3, ![2000000, 15, 3]⟩
abbrev S_ : Shape := ⟨0, ![]⟩
abbrev S2000000 : Shape := ⟨1, ![2000000]⟩
abbrev S2000000x1 : Shape := ⟨2, ![2000000, 1]⟩
abbrev S2000000x9 : Shape := ⟨2, ![2000000, 9]⟩
abbrev S2000000x3x3 : Shape := ⟨3, ![2000000, 3, 3]⟩
abbrev S2000000x16x3 : Shape := ⟨3, ![2000000, 16, 3]⟩
abbrev S2000000x3x16 : Shape := ⟨3, ![2000000, 3, 16]⟩
abbrev S2000000x3x1 : Shape := ⟨3, ![2000000, 3, 1]⟩

abbrev nBuf : Space → Nat
  | .hbm => 277
  | .vmem => 0
  | .smem => 0
  | _ => 0

abbrev hbmTy0_0 (i : Nat) : BufTy := match i % 128 with
  | 0 => ⟨S2000000x3, .f32⟩
  | 1 => ⟨S2000000x4, .f32⟩
  | 2 => ⟨S2000000x1x3, .f32⟩
  | 3 => ⟨S2000000x15x3, .f32⟩
  | 4 => ⟨S2000000x3, .f32⟩
  | 5 => ⟨S2000000x3, .f32⟩
  | 6 => ⟨S_, .f32⟩
  | 7 => ⟨S2000000x3, .f32⟩
  | 8 => ⟨S2000000x3, .f32⟩
  | 9 => ⟨S2000000x4, .f32⟩
  | 10 => ⟨S_, .f32⟩
  | 11 => ⟨S2000000, .f32⟩
  | 12 => ⟨S2000000x1, .f32⟩
  | 13 => ⟨S2000000x1, .f32⟩
  | 14 => ⟨S_, .f32⟩
  | 15 => ⟨S_, .f32⟩
  | 16 => ⟨S2000000x1, .f32⟩
  | 17 => ⟨S2000000x1, .f32⟩
  | 18 => ⟨S2000000x4, .f32⟩
  | 19 => ⟨S2000000x4, .f32⟩
  | 20 => ⟨S2000000x1, .f32⟩
  | 21 => ⟨S2000000, .f32⟩
  | 22 => ⟨S2000000x1, .f32⟩
  | 23 => ⟨S2000000, .f32⟩
  | 24 => ⟨S2000000x1, .f32⟩
  | 25 => ⟨S2000000, .f32⟩
  | 26 => ⟨S2000000x1, .f32⟩
  | 27 => ⟨S2000000, .f32⟩
  | 28 => ⟨S2000000, .f32⟩
  | 29 => ⟨S2000000, .f32⟩
  | 30 => ⟨S2000000, .f32⟩
  | 31 => ⟨S2000000, .f32⟩
  | 32 => ⟨S2000000, .f32⟩
  | 33 => ⟨S2000000, .f32⟩
  | 34 => ⟨S2000000, .f32⟩
  | 35 => ⟨S2000000, .f32⟩
  | 36 => ⟨S2000000, .f32⟩
  | 37 => ⟨S2000000, .f32⟩
  | 38 => ⟨S2000000, .f32⟩
  | 39 => ⟨S2000000, .f32⟩
  | 40 => ⟨S2000000, .f32⟩
  | 41 => ⟨S2000000, .f32⟩
  | 42 => ⟨S_, .f32⟩
  | 43 => ⟨S2000000, .f32⟩
  | 44 => ⟨S2000000, .f32⟩
  | 45 => ⟨S2000000, .f32⟩
  | 46 => ⟨S_, .f32⟩
  | 47 => ⟨S2000000, .f32⟩
  | 48 => ⟨S2000000, .f32⟩
  | 49 => ⟨S2000000, .f32⟩
  | 50 => ⟨S_, .f32⟩
  | 51 => ⟨S2000000, .f32⟩
  | 52 => ⟨S2000000, .f32⟩
  | 53 => ⟨S2000000, .f32⟩
  | 54 => ⟨S2000000, .f32⟩
  | 55 => ⟨S2000000, .f32⟩
  | 56 => ⟨S2000000, .f32⟩
  | 57 => ⟨S_, .f32⟩
  | 58 => ⟨S2000000, .f32⟩
  | 59 => ⟨S2000000, .f32⟩
  | 60 => ⟨S2000000, .f32⟩
  | 61 => ⟨S_, .f32⟩
  | 62 => ⟨S2000000, .f32⟩
  | 63 => ⟨S2000000, .f32⟩
  | 64 => ⟨S2000000, .f32⟩
  | 65 => ⟨S_, .f32⟩
  | 66 => ⟨S2000000, .f32⟩
  | 67 => ⟨S2000000, .f32⟩
  | 68 => ⟨S2000000, .f32⟩
  | 69 => ⟨S2000000, .f32⟩
  | 70 => ⟨S2000000, .f32⟩
  | 71 => ⟨S2000000x1, .f32⟩
  | 72 => ⟨S2000000x1, .f32⟩
  | 73 => ⟨S2000000x1, .f32⟩
  | 74 => ⟨S2000000x1, .f32⟩
  | 75 => ⟨S2000000x1, .f32⟩
  | 76 => ⟨S2000000x1, .f32⟩
  | 77 => ⟨S2000000x1, .f32⟩
  | 78 => ⟨S2000000x1, .f32⟩
  | 79 => ⟨S2000000x1, .f32⟩
  | 80 => ⟨S2000000x9, .f32⟩
  | 81 => ⟨S2000000x3x3, .f32⟩
  | 82 => ⟨S2000000x1x3, .f32⟩
  | 83 => ⟨S2000000x3x3, .f32⟩
  | 84 => ⟨S2000000x3x3, .f32⟩
  | 85 => ⟨S2000000x3x3, .f32⟩
  | 86 => ⟨S2000000x16x3, .f32⟩
  | 87 => ⟨S2000000x3x16, .f32⟩
  | 88 => ⟨S2000000x1, .f32⟩
  | 89 => ⟨S2000000x1, .f32⟩
  | 90 => ⟨S2000000x1, .f32⟩
  | 91 => ⟨S2000000x3x1, .f32⟩
  | 92 => ⟨S2000000x3, .f32⟩
  | 93 => ⟨S_, .f32⟩
  | 94 => ⟨S2000000x3, .f32⟩
  | 95 => ⟨S2000000x3, .f32⟩
  | 96 => ⟨S_, .f32⟩
  | 97 => ⟨S2000000x1, .f32⟩
  | 98 => ⟨S2000000x1, .f32⟩
  | 99 => ⟨S2000000x3x1, .f32⟩
  | 100 => ⟨S2000000x3, .f32⟩
  | 101 => ⟨S2000000x3, .f32⟩
  | 102 => ⟨S2000000x3, .f32⟩
  | 103 => ⟨S2000000x3, .f32⟩
  | 104 => ⟨S_, .f32⟩
  | 105 => ⟨S2000000x1, .f32⟩
  | 106 => ⟨S2000000x1, .f32⟩
  | 107 => ⟨S2000000x3x1, .f32⟩
  | 108 => ⟨S2000000x3, .f32⟩
  | 109 => ⟨S2000000x3, .f32⟩
  | 110 => ⟨S2000000x3, .f32⟩
  | 111 => ⟨S2000000x3, .f32⟩
  | 112 => ⟨S_, .f32⟩
  | 113 => ⟨S2000000x1, .f32⟩
  | 114 => ⟨S2000000x1, .f32⟩
  | 115 => ⟨S2000000x3x1, .f32⟩
  | 116 => ⟨S2000000x3, .f32⟩
  | 117 => ⟨S2000000x3, .f32⟩
  | 118 => ⟨S2000000x3, .f32⟩
  | 119 => ⟨S2000000x3, .f32⟩
  | 120 => ⟨S2000000x1, .f32⟩
  | 121 => ⟨S2000000x1, .f32⟩
  | 122 => ⟨S2000000x1, .f32⟩
  | 123 => ⟨S2000000x1, .f32⟩
  | 124 => ⟨S2000000x1, .f32⟩
  | 125 => ⟨S2000000x1, .f32⟩
  | 126 => ⟨S_, .f32⟩
  | 127 => ⟨S2000000x1, .f32⟩
  | _ => ⟨S2000000x3, .f32⟩

abbrev hbmTy0_1 (i : Nat) : BufTy := match i % 128 with
  | 0 => ⟨S2000000x1, .f32⟩
  | 1 => ⟨S2000000x3x1, .f32⟩
  | 2 => ⟨S2000000x3, .f32⟩
  | 3 => ⟨S2000000x3, .f32⟩
  | 4 => ⟨S2000000x3, .f32⟩
  | 5 => ⟨S2000000x3, .f32⟩
  | 6 => ⟨S_, .f32⟩
  | 7 => ⟨S2000000x1, .f32⟩
  | 8 => ⟨S2000000x1, .f32⟩
  | 9 => ⟨S2000000x3x1, .f32⟩
  | 10 => ⟨S2000000x3, .f32⟩
  | 11 => ⟨S2000000x3, .f32⟩
  | 12 => ⟨S2000000x3, .f32⟩
  | 13 => ⟨S2000000x3, .f32⟩
  | 14 => ⟨S_, .f32⟩
  | 15 => ⟨S2000000x1, .f32⟩
  | 16 => ⟨S2000000x1, .f32⟩
  | 17 => ⟨S2000000x1, .f32⟩
  | 18 => ⟨S2000000x1, .f32⟩
  | 19 => ⟨S_, .f32⟩
  | 20 => ⟨S2000000x1, .f32⟩
  | 21 => ⟨S2000000x1, .f32⟩
  | 22 => ⟨S2000000x3x1, .f32⟩
  | 23 => ⟨S2000000x3, .f32⟩
  | 24 => ⟨S2000000x3, .f32⟩
  | 25 => ⟨S2000000x3, .f32⟩
  | 26 => ⟨S2000000x3, .f32⟩
  | 27 => ⟨S_, .f32⟩
  | 28 => ⟨S2000000x1, .f32⟩
  | 29 => ⟨S2000000x1, .f32⟩
  | 30 => ⟨S2000000x3x1, .f32⟩
  | 31 => ⟨S2000000x3, .f32⟩
  | 32 => ⟨S2000000x3, .f32⟩
  | 33 => ⟨S2000000x3, .f32⟩
  | 34 => ⟨S2000000x3, .f32⟩
  | 35 => ⟨S2000000x1, .f32⟩
  | 36 => ⟨S_, .f32⟩
  | 37 => ⟨S2000000x1, .f32⟩
  | 38 => ⟨S2000000x1, .f32⟩
  | 39 => ⟨S2000000x3x1, .f32⟩
  | 40 => ⟨S2000000x3, .f32⟩
  | 41 => ⟨S2000000x3, .f32⟩
  | 42 => ⟨S2000000x3, .f32⟩
  | 43 => ⟨S2000000x3, .f32⟩
  | 44 => ⟨S_, .f32⟩
  | 45 => ⟨S2000000x1, .f32⟩
  | 46 => ⟨S2000000x1, .f32⟩
  | 47 => ⟨S_, .f32⟩
  | 48 => ⟨S2000000x1, .f32⟩
  | 49 => ⟨S2000000x1, .f32⟩
  | 50 => ⟨S2000000x1, .f32⟩
  | 51 => ⟨S2000000x1, .f32⟩
  | 52 => ⟨S2000000x3x1, .f32⟩
  | 53 => ⟨S2000000x3, .f32⟩
  | 54 => ⟨S2000000x3, .f32⟩
  | 55 => ⟨S2000000x3, .f32⟩
  | 56 => ⟨S2000000x3, .f32⟩
  | 57 => ⟨S_, .f32⟩
  | 58 => ⟨S2000000x1, .f32⟩
  | 59 => ⟨S2000000x1, .f32⟩
  | 60 => ⟨S2000000x1, .f32⟩
  | 61 => ⟨S2000000x3x1, .f32⟩
  | 62 => ⟨S2000000x3, .f32⟩
  | 63 => ⟨S2000000x3, .f32⟩
  | 64 => ⟨S2000000x3, .f32⟩
  | 65 => ⟨S2000000x3, .f32⟩
  | 66 => ⟨S_, .f32⟩
  | 67 => ⟨S2000000x1, .f32⟩
  | 68 => ⟨S2000000x1, .f32⟩
  | 69 => ⟨S_, .f32⟩
  | 70 => ⟨S2000000x1, .f32⟩
  | 71 => ⟨S2000000x1, .f32⟩
  | 72 => ⟨S2000000x1, .f32⟩
  | 73 => ⟨S2000000x1, .f32⟩
  | 74 => ⟨S2000000x1, .f32⟩
  | 75 => ⟨S2000000x3x1, .f32⟩
  | 76 => ⟨S2000000x3, .f32⟩
  | 77 => ⟨S2000000x3, .f32⟩
  | 78 => ⟨S2000000x3, .f32⟩
  | 79 => ⟨S2000000x3, .f32⟩
  | 80 => ⟨S_, .f32⟩
  | 81 => ⟨S2000000x1, .f32⟩
  | 82 => ⟨S2000000x1, .f32⟩
  | 83 => ⟨S_, .f32⟩
  | 84 => ⟨S2000000x1, .f32⟩
  | 85 => ⟨S2000000x1, .f32⟩
  | 86 => ⟨S_, .f32⟩
  | 87 => ⟨S2000000x1, .f32⟩
  | 88 => ⟨S2000000x1, .f32⟩
  | 89 => ⟨S2000000x1, .f32⟩
  | 90 => ⟨S_, .f32⟩
  | 91 => ⟨S2000000x1, .f32⟩
  | 92 => ⟨S2000000x1, .f32⟩
  | 93 => ⟨S2000000x1, .f32⟩
  | 94 => ⟨S2000000x1, .f32⟩
  | 95 => ⟨S2000000x3x1, .f32⟩
  | 96 => ⟨S2000000x3, .f32⟩
  | 97 => ⟨S2000000x3, .f32⟩
  | 98 => ⟨S2000000x3, .f32⟩
  | 99 => ⟨S2000000x3, .f32⟩
  | 100 => ⟨S_, .f32⟩
  | 101 => ⟨S2000000x1, .f32⟩
  | 102 => ⟨S2000000x1, .f32⟩
  | 103 => ⟨S_, .f32⟩
  | 104 => ⟨S2000000x1, .f32⟩
  | 105 => ⟨S2000000x1, .f32⟩
  | 106 => ⟨S2000000x1, .f32⟩
  | 107 => ⟨S2000000x1, .f32⟩
  | 108 => ⟨S2000000x1, .f32⟩
  | 109 => ⟨S2000000x3x1, .f32⟩
  | 110 => ⟨S2000000x3, .f32⟩
  | 111 => ⟨S2000000x3, .f32⟩
  | 112 => ⟨S2000000x3, .f32⟩
  | 113 => ⟨S2000000x3, .f32⟩
  | 114 => ⟨S_, .f32⟩
  | 115 => ⟨S2000000x1, .f32⟩
  | 116 => ⟨S2000000x1, .f32⟩
  | 117 => ⟨S2000000x1, .f32⟩
  | 118 => ⟨S2000000x1, .f32⟩
  | 119 => ⟨S2000000x3x1, .f32⟩
  | 120 => ⟨S2000000x3, .f32⟩
  | 121 => ⟨S2000000x3, .f32⟩
  | 122 => ⟨S2000000x3, .f32⟩
  | 123 => ⟨S2000000x3, .f32⟩
  | 124 => ⟨S_, .f32⟩
  | 125 => ⟨S2000000x1, .f32⟩
  | 126 => ⟨S2000000x1, .f32⟩
  | 127 => ⟨S2000000x1, .f32⟩
  | _ => ⟨S2000000x3, .f32⟩

abbrev hbmTy0_2 (i : Nat) : BufTy := match i % 128 with
  | 0 => ⟨S_, .f32⟩
  | 1 => ⟨S2000000x1, .f32⟩
  | 2 => ⟨S2000000x1, .f32⟩
  | 3 => ⟨S2000000x1, .f32⟩
  | 4 => ⟨S2000000x1, .f32⟩
  | 5 => ⟨S2000000x3x1, .f32⟩
  | 6 => ⟨S2000000x3, .f32⟩
  | 7 => ⟨S2000000x3, .f32⟩
  | 8 => ⟨S2000000x3, .f32⟩
  | 9 => ⟨S2000000x3, .f32⟩
  | 10 => ⟨S_, .f32⟩
  | 11 => ⟨S2000000x3, .f32⟩
  | 12 => ⟨S2000000x3, .f32⟩
  | 13 => ⟨S_, .f32⟩
  | 14 => ⟨S_, .f32⟩
  | 15 => ⟨S_, .f32⟩
  | 16 => ⟨S2000000x3, .f32⟩
  | 17 => ⟨S2000000x3, .f32⟩
  | 18 => ⟨S_, .f32⟩
  | 19 => ⟨S2000000x3, .f32⟩
  | 20 => ⟨S2000000x3, .f32⟩
  | _ => ⟨S2000000x3, .f32⟩

abbrev hbmTy (i : Nat) : BufTy := match i / 128 with
  | 0 => hbmTy0_0 i
  | 1 => hbmTy0_1 i
  | 2 => hbmTy0_2 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v3 : Ref sig .tc := ⟨.hbm, 13, rfl⟩
abbrev main_cst_0 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_7 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_9 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_10 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_11 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_12 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_13 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_14 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_15 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_16 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_cst_17 : Ref sig .tc := ⟨.hbm, 172, rfl⟩
abbrev main_v143 : Ref sig .tc := ⟨.hbm, 173, rfl⟩
abbrev main_v144 : Ref sig .tc := ⟨.hbm, 174, rfl⟩
abbrev main_cst_18 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_cst_19 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_cst_20 : Ref sig .tc := ⟨.hbm, 194, rfl⟩
abbrev main_v162 : Ref sig .tc := ⟨.hbm, 195, rfl⟩
abbrev main_v163 : Ref sig .tc := ⟨.hbm, 196, rfl⟩
abbrev main_cst_21 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_cst_22 : Ref sig .tc := ⟨.hbm, 208, rfl⟩
abbrev main_v174 : Ref sig .tc := ⟨.hbm, 209, rfl⟩
abbrev main_v175 : Ref sig .tc := ⟨.hbm, 210, rfl⟩
abbrev main_cst_23 : Ref sig .tc := ⟨.hbm, 211, rfl⟩
abbrev main_v176 : Ref sig .tc := ⟨.hbm, 212, rfl⟩
abbrev main_v177 : Ref sig .tc := ⟨.hbm, 213, rfl⟩
abbrev main_cst_24 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_cst_25 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_cst_26 : Ref sig .tc := ⟨.hbm, 228, rfl⟩
abbrev main_v190 : Ref sig .tc := ⟨.hbm, 229, rfl⟩
abbrev main_v191 : Ref sig .tc := ⟨.hbm, 230, rfl⟩
abbrev main_cst_27 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_cst_28 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_cst_29 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_cst_30 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_cst_31 : Ref sig .tc := ⟨.hbm, 266, rfl⟩
abbrev main_v223 : Ref sig .tc := ⟨.hbm, 267, rfl⟩
abbrev main_v224 : Ref sig .tc := ⟨.hbm, 268, rfl⟩
abbrev main_cst_32 : Ref sig .tc := ⟨.hbm, 269, rfl⟩
abbrev main_cst_33 : Ref sig .tc := ⟨.hbm, 270, rfl⟩
abbrev main_call2_v0 : Ref sig .tc := ⟨.hbm, 271, rfl⟩
abbrev main_call2_v1 : Ref sig .tc := ⟨.hbm, 272, rfl⟩
abbrev main_call2_v2 : Ref sig .tc := ⟨.hbm, 273, rfl⟩
abbrev main_call2_v3 : Ref sig .tc := ⟨.hbm, 274, rfl⟩
abbrev main_call2_v4 : Ref sig .tc := ⟨.hbm, 275, rfl⟩
abbrev main_v225 : Ref sig .tc := ⟨.hbm, 276, rfl⟩

abbrev nD : Nat := 1
abbrev τ : Topo := Topo.v7x

variable {F : FTy → Type} [FloatOps F]

class Facts₀ : Prop where
  bcast_S_S2000000x3 : S_.BroadcastsInDim S2000000x3 (![] : Fin 0 → Fin S2000000x3.rank)
  reducesTo_S2000000x4_S2000000_d1 : S2000000x4.ReducesTo [1] S2000000
  h_S_ : 0 < S_.numel
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S2000000x1_S2000000x4_0_1 : S2000000x1.BroadcastsInDim S2000000x4 (![0, 1] : Fin 2 → Fin S2000000x4.rank)
  slices_S2000000x4_S2000000x1_0_0 : S2000000x4.Slices ![0, 0] S2000000x1
  shapeCasts_S2000000x1_S2000000 : S2000000x1.ShapeCasts S2000000
  slices_S2000000x4_S2000000x1_0_1 : S2000000x4.Slices ![0, 1] S2000000x1
  slices_S2000000x4_S2000000x1_0_2 : S2000000x4.Slices ![0, 2] S2000000x1
  slices_S2000000x4_S2000000x1_0_3 : S2000000x4.Slices ![0, 3] S2000000x1
  bcast_S_S2000000 : S_.BroadcastsInDim S2000000 (![] : Fin 0 → Fin S2000000.rank)
  concatenates_S2000000x1_S2000000x1_S2000000x1_S2000000x1_S2000000x1_S2000000x1_S2000000x1_S2000000x1_S2000000x1_S2000000x9_d1 : Shape.Concatenates [S2000000x1, S2000000x1, S2000000x1, S2000000x1, S2000000x1, S2000000x1, S2000000x1, S2000000x1, S2000000x1] S2000000x9 1
  shapeCasts_S2000000x9_S2000000x3x3 : S2000000x9.ShapeCasts S2000000x3x3
  bcast_S2000000x3_S2000000x1x3_0_2 : S2000000x3.BroadcastsInDim S2000000x1x3 (![0, 2] : Fin 2 → Fin S2000000x1x3.rank)
  bcast_S2000000x1x3_S2000000x3x3_0_1_2 : S2000000x1x3.BroadcastsInDim S2000000x3x3 (![0, 1, 2] : Fin 3 → Fin S2000000x3x3.rank)
  concatenates_S2000000x1x3_S2000000x15x3_S2000000x16x3_d1 : Shape.Concatenates [S2000000x1x3, S2000000x15x3] S2000000x16x3 1
  transposes_S2000000x16x3_S2000000x3x16_0_2_1 : S2000000x16x3.Transposes [0, 2, 1] S2000000x3x16
  slices_S2000000x3_S2000000x1_0_0 : S2000000x3.Slices ![0, 0] S2000000x1
  slices_S2000000x3_S2000000x1_0_1 : S2000000x3.Slices ![0, 1] S2000000x1
  slices_S2000000x3_S2000000x1_0_2 : S2000000x3.Slices ![0, 2] S2000000x1
  slices_S2000000x3x16_S2000000x3x1_0_0_0 : S2000000x3x16.Slices ![0, 0, 0] S2000000x3x1
  shapeCasts_S2000000x3x1_S2000000x3 : S2000000x3x1.ShapeCasts S2000000x3
  slices_S2000000x3x16_S2000000x3x1_0_0_1 : S2000000x3x16.Slices ![0, 0, 1] S2000000x3x1
  bcast_S2000000x1_S2000000x3_0_1 : S2000000x1.BroadcastsInDim S2000000x3 (![0, 1] : Fin 2 → Fin S2000000x3.rank)
  slices_S2000000x3x16_S2000000x3x1_0_0_2 : S2000000x3x16.Slices ![0, 0, 2] S2000000x3x1
  slices_S2000000x3x16_S2000000x3x1_0_0_3 : S2000000x3x16.Slices ![0, 0, 3] S2000000x3x1
  slices_S2000000x3x16_S2000000x3x1_0_0_4 : S2000000x3x16.Slices ![0, 0, 4] S2000000x3x1
  slices_S2000000x3x16_S2000000x3x1_0_0_5 : S2000000x3x16.Slices ![0, 0, 5] S2000000x3x1
  slices_S2000000x3x16_S2000000x3x1_0_0_6 : S2000000x3x16.Slices ![0, 0, 6] S2000000x3x1
  slices_S2000000x3x16_S2000000x3x1_0_0_7 : S2000000x3x16.Slices ![0, 0, 7] S2000000x3x1
  slices_S2000000x3x16_S2000000x3x1_0_0_8 : S2000000x3x16.Slices ![0, 0, 8] S2000000x3x1
  slices_S2000000x3x16_S2000000x3x1_0_0_9 : S2000000x3x16.Slices ![0, 0, 9] S2000000x3x1
  slices_S2000000x3x16_S2000000x3x1_0_0_10 : S2000000x3x16.Slices ![0, 0, 10] S2000000x3x1
  slices_S2000000x3x16_S2000000x3x1_0_0_11 : S2000000x3x16.Slices ![0, 0, 11] S2000000x3x1
  slices_S2000000x3x16_S2000000x3x1_0_0_12 : S2000000x3x16.Slices ![0, 0, 12] S2000000x3x1
  slices_S2000000x3x16_S2000000x3x1_0_0_13 : S2000000x3x16.Slices ![0, 0, 13] S2000000x3x1
  slices_S2000000x3x16_S2000000x3x1_0_0_14 : S2000000x3x16.Slices ![0, 0, 14] S2000000x3x1
  slices_S2000000x3x16_S2000000x3x1_0_0_15 : S2000000x3x16.Slices ![0, 0, 15] S2000000x3x1
  dot_S2000000x3x3_S2000000x3x3_S2000000x3x3_2_2_1_1_0_0_wf : DotDims.WF S2000000x3x3 S2000000x3x3 S2000000x3x3 [2] [2] [1] [1] [0] [0]

variable [Facts₀]

def dot_S2000000x3x3_S2000000x3x3_S2000000x3x3_2_2_1_1_0_0 : DotDims S2000000x3x3 S2000000x3x3 S2000000x3x3 where
  lhsContracting := [2]
  rhsContracting := [2]
  lhsNonContracting := [1]
  rhsNonContracting := [1]
  lhsBatch := [0]
  rhsBatch := [0]
  wf := dot_S2000000x3x3_S2000000x3x3_S2000000x3x3_2_2_1_1_0_0_wf

class Facts : Prop extends Facts₀ where

variable [Facts]
-- ==== Proof.Spec.lean ====
/-
  The mathematics of one Gaussian, on the extended reals.

  A point has three scale logits, a quaternion, one constant and fifteen higher spherical-harmonic coefficients per
  colour channel, and a viewing direction.  Its covariance is (R·diag s)(R·diag s)ᵀ with s = exp(logit)·1 and R the
  rotation of the quaternion divided by its clamped length max(√(r₀²+r₁²+r₂²+r₃²), c); its colour is the degree-3
  harmonic polynomial of the direction plus one half, clamped to [0, 1].

  Two spellings of the normalised quaternion meet here: the component times the reciprocal of the clamped length,
  and the component divided by the clamped length, the sum of squares taken as a sum over the four components from
  zero.  They agree on every extended real because the clamped length is at least c > 0, so it is not zero, and off
  zero the quotient x / n is the product x · n⁻¹ while 1 / n is n⁻¹.  A sum over the three columns of a row of the
  matrix is the three products added from the left.  Nothing here needs the inputs finite.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The extended real a binary32 word denotes. -/
abbrev w32 (b : BitVec 32) : EReal := Ideal.ofBits .f32 b

/-! ## The covariance -/

/-- A scale: the exponential of the logit, times the word for one. -/
def scale (s : EReal) : EReal := Ideal.exp s * w32 0x3F800000#32

/-- The clamped length of a quaternion, the squares added from the left. -/
def len (r : Fin 4 → EReal) : EReal :=
  max (Ideal.sqrt (((r 0 * r 0 + r 1 * r 1) + r 2 * r 2) + r 3 * r 3)) (w32 0x2B8CBCCC#32)

/-- The same length with the squares summed over the four components from the zero word, the clamp's arguments in
    the other order. -/
def lenSum (r : Fin 4 → EReal) : EReal :=
  max (w32 0x2B8CBCCC#32) (Ideal.sqrt (w32 0x00000000#32 + ∑ k : Fin 4, r k * r k))

/-- A component of the normalised quaternion: the component times the reciprocal of the clamped length. -/
def unit (r : Fin 4 → EReal) (k : Fin 4) : EReal := r k * Ideal.div (w32 0x3F800000#32) (len r)

/-- The same component as a quotient by the summed length. -/
def unitDiv (r : Fin 4 → EReal) (k : Fin 4) : EReal := Ideal.div (r k) (lenSum r)

/-- The nine entries of the rotation matrix of a quaternion (w, x, y, z), row by row. -/
def rotf (w x y z : EReal) : Fin 9 → EReal :=
  ![((w * w + x * x) - y * y) - z * z, w32 0x40000000#32 * (x * y - w * z), w32 0x40000000#32 * (x * z + w * y),
    w32 0x40000000#32 * (x * y + w * z), ((w * w - x * x) + y * y) - z * z, w32 0x40000000#32 * (y * z - w * x),
    w32 0x40000000#32 * (x * z - w * y), w32 0x40000000#32 * (y * z + w * x), ((w * w - x * x) - y * y) + z * z]

/-- Position (a, j) of a 3 × 3 matrix stored row by row. -/
abbrev at9 (a j : Fin 3) : Fin 9 := ⟨3 * a.val + j.val, by have := a.isLt; have := j.isLt; omega⟩

/-- Entry (a, j) of R · diag s. -/
def scaled (s : Fin 3 → EReal) (R : Fin 9 → EReal) (a j : Fin 3) : EReal := R (at9 a j) * s j

/-- Entry (a, b) of (R · diag s)(R · diag s)ᵀ, the three products added from the left. -/
def covE (s : Fin 3 → EReal) (R : Fin 9 → EReal) (a b : Fin 3) : EReal :=
  (scaled s R a 0 * scaled s R b 0 + scaled s R a 1 * scaled s R b 1) + scaled s R a 2 * scaled s R b 2

/-- The covariance entry of a point from its logits and its raw quaternion. -/
def cov (l : Fin 3 → EReal) (r : Fin 4 → EReal) (a b : Fin 3) : EReal :=
  covE (fun j => scale (l j)) (rotf (unit r 0) (unit r 1) (unit r 2) (unit r 3)) a b

/-- The word of the clamp denotes a positive real. -/
theorem clamp_pos : (0 : EReal) < w32 0x2B8CBCCC#32 := by
  have h : w32 0x2B8CBCCC#32 = (((9223372 : ℝ) * (2 : ℝ) ^ (-63 : Int) : ℝ) : EReal) := by
    simp [w32, Ideal.ofBits, Ideal.ieee, -EReal.coe_mul]
  rw [h]; exact_mod_cast (by positivity : (0 : ℝ) < 9223372 * (2 : ℝ) ^ (-63 : Int))

theorem len_ne_zero (r : Fin 4 → EReal) : len r ≠ 0 :=
  (lt_of_lt_of_le clamp_pos (le_max_right _ _)).ne'

/-- The two spellings of the clamped length are one value. -/
theorem lenSum_eq (r : Fin 4 → EReal) : lenSum r = len r := by
  unfold lenSum len
  rw [Fin.sum_univ_four, show w32 0x00000000#32 = 0 from Ideal.ofBits_zero_f32, zero_add, max_comm]

/-- Off zero a quotient is the product with the reciprocal. -/
theorem div_eq_mul_one_div (x n : EReal) (hn : n ≠ 0) : Ideal.div x n = x * Ideal.div (w32 0x3F800000#32) n := by
  have h1 : w32 0x3F800000#32 = 1 := by simp [w32, Ideal.ofBits, Ideal.ieee, -EReal.coe_mul]; norm_num
  unfold Ideal.div
  rw [if_neg hn, if_neg hn, h1, one_mul]

/-- The two spellings of a normalised component are one value. -/
theorem unitDiv_eq (r : Fin 4 → EReal) (k : Fin 4) : unitDiv r k = unit r k := by
  unfold unitDiv unit
  rw [lenSum_eq, div_eq_mul_one_div _ _ (len_ne_zero r)]

/-- A row of R · diag s against another, summed over the three columns, is the covariance entry. -/
theorem sum_scaled (s : Fin 3 → EReal) (R : Fin 9 → EReal) (a b : Fin 3) :
    ∑ j : Fin 3, scaled s R a j * scaled s R b j = covE s R a b := by
  rw [Fin.sum_univ_three]; rfl

/-! ## The colour -/

/-- One channel of the colour: x, y, z the direction, d the constant coefficient, h the fifteen others. -/
def col (x y z d : EReal) (h : Fin 15 → EReal) : EReal :=
  min (w32 0x3F800000#32) (max (w32 0x00000000#32) (((((((((((((((((w32 0x3E906EBB#32 * d
    - (w32 0x3EFA2A1C#32 * y) * h 0)
    + (w32 0x3EFA2A1C#32 * z) * h 1)
    - (w32 0x3EFA2A1C#32 * x) * h 2)
    + (w32 0x3F8BD8A1#32 * (x * y)) * h 3)
    + (w32 0xBF8BD8A1#32 * (y * z)) * h 4)
    + (w32 0x3EA17B01#32 * ((w32 0x40000000#32 * (z * z) - x * x) - y * y)) * h 5)
    + (w32 0xBF8BD8A1#32 * (x * z)) * h 6)
    + (w32 0x3F0BD8A1#32 * (x * x - y * y)) * h 7)
    + ((w32 0xBF170D19#32 * y) * (w32 0x40400000#32 * (x * x) - y * y)) * h 8)
    + ((w32 0x4038FFC7#32 * (x * y)) * z) * h 9)
    + ((w32 0xBEEA01E8#32 * y) * ((w32 0x40800000#32 * (z * z) - x * x) - y * y)) * h 10)
    + ((w32 0x3EBF10F8#32 * z) * ((w32 0x40000000#32 * (z * z) - w32 0x40400000#32 * (x * x)) - w32 0x40400000#32 * (y * y))) * h 11)
    + ((w32 0xBEEA01E8#32 * x) * ((w32 0x40800000#32 * (z * z) - x * x) - y * y)) * h 12)
    + ((w32 0x3FB8FFC7#32 * z) * (x * x - y * y)) * h 13)
    + ((w32 0xBF170D19#32 * x) * ((x * x - y * y) - w32 0x40400000#32 * (z * z))) * h 14)
    + w32 0x3F000000#32)))

/-! ## The two results as functions of the five argument arrays -/

/-- The covariance array [N, 3, 3] of the logits [N, 3] and the quaternions [N, 4]. -/
def Gcov {N : Nat} (a0 : (⟨2, ![N, 3]⟩ : Shape).Idx → EReal) (a1 : (⟨2, ![N, 4]⟩ : Shape).Idx → EReal) :
    (⟨3, ![N, 3, 3]⟩ : Shape).Idx → EReal :=
  fun i => cov (fun j => a0 (ix2 (i 0) j)) (fun k => a1 (ix2 (i 0) k)) (i 1) (i 2)

/-- The colour array [N, 3] of the constant coefficients [N, 1, 3], the others [N, 15, 3] and the directions [N, 3]. -/
def Gcol {N : Nat} (a2 : (⟨3, ![N, 1, 3]⟩ : Shape).Idx → EReal) (a3 : (⟨3, ![N, 15, 3]⟩ : Shape).Idx → EReal)
    (a4 : (⟨2, ![N, 3]⟩ : Shape).Idx → EReal) : (⟨2, ![N, 3]⟩ : Shape).Idx → EReal :=
  fun i => col (a4 (ix2 (i 0) 0)) (a4 (ix2 (i 0) 1)) (a4 (ix2 (i 0) 2)) (a2 (ix3 (i 0) 0 (i 1)))
    (fun k => a3 (ix3 (i 0) k (i 1)))

end Cert.Spec

end
-- ==== Proof.LibTileStack.lean ====
/-
  Two layout operations of a stack of tiles, read at an index given by coordinates.

  A stack [n, a, b] is a list of n tiles [a, b] along its first axis.  Cutting m consecutive tiles out of it from
  tile o reads, at (u, p, q), the stack at (o + u, p, q); repeating one tile [1, a, b] over m tiles reads, at
  (k, p, q), the tile at (0, p, q).  Both are the library's general lemmas for a slice and for a broadcast with the
  coordinates' arithmetic discharged at rank 3, so that they apply to a printed operation by unification.
-/
import Idealize.ShloMosaic.Lib.Pipeline.Value
import Idealize.ShloMosaic.Lib.ValueIdx

namespace Cert.Lib.TileStack

open Idealize.ShloMosaic Idealize.ShloMosaic.ValueIdx

variable {α : Type}

/-- A rank-3 array cut along axis 0 from `o` reads, at `(u, p, q)`, the source at `(o + u, p, q)`. -/
theorem slice3_axis0_eq {n0 n1 n2 m : Nat} (o : Nat) (X : (⟨3, ![n0, n1, n2]⟩ : Shape).Idx → α)
    (h : (⟨3, ![n0, n1, n2]⟩ : Shape).Slices ![o, 0, 0] ⟨3, ![m, n1, n2]⟩) (u : Fin m) (p : Fin n1) (q : Fin n2) :
    extractStridedSlice ⟨3, ![m, n1, n2]⟩ ![o, 0, 0] X h (ix3 u p q)
      = X (ix3 ⟨o + u.val, Nat.lt_of_lt_of_le (Nat.add_lt_add_left u.isLt o) (h.2 0)⟩ p q) :=
  extractStridedSlice_apply _ _ _ _ _ (fun ax => by
    match ax with
    | ⟨0, _⟩ => rfl
    | ⟨1, _⟩ => exact (Nat.zero_add _).symm
    | ⟨2, _⟩ => exact (Nat.zero_add _).symm)

/-- One tile `[1, a, b]` repeated over `m` tiles reads, at `(k, p, q)`, the tile at `(0, p, q)`. -/
theorem broadcastTo_1ab_mab_apply {m a b : Nat} (v : (⟨3, ![1, a, b]⟩ : Shape).Idx → α)
    (h : (⟨3, ![1, a, b]⟩ : Shape).Broadcasts ⟨3, ![m, a, b]⟩) (k : Fin m) (p : Fin a) (q : Fin b) :
    broadcastTo ⟨3, ![m, a, b]⟩ v h (ix3 k p q) = v (ix3 (0 : Fin 1) p q) := by
  refine broadcastTo_apply v h (ix3 k p q) (ix3 (0 : Fin 1) p q) fun ax => ?_
  match ax with
  | ⟨0, _⟩ => rfl
  | ⟨1, _⟩ =>
    show p.val = if a = 1 then 0 else p.val
    split
    · have := p.isLt; omega
    · rfl
  | ⟨2, _⟩ =>
    show q.val = if b = 1 then 0 else q.val
    split
    · have := q.isLt; omega
    · rfl

end Cert.Lib.TileStack
-- ==== Proof.Body.lean ====
/-
  What one grid point leaves in its two output tile stacks, index by index.

  The body reads five tile stacks — the scale logits [3, 128, 128], the quaternions [4, 128, 128], the constant
  colour coefficients [3, 128, 128], the other forty-five [45, 128, 128] (coefficient k of channel c in tile 3k + c)
  and the directions [3, 128, 128] — and every operation in it is pointwise in the tile position (p, q): cutting a
  tile out of a stack, dropping or adding the leading unit axis, and repeating one tile over the three channels only
  rename the tile.  So at (k, p, q) the covariance stack holds entry (k / 3, k mod 3) of the covariance of the point at
  (p, q) — its nine stores are the nine tiles, each covering its own — and at (c, p, q) the colour stack holds channel
  c of that point's colour.
-/
import proofs.«139306_j35287451304162_2_alg».proof.Proof.Gen.KernelIdeal.Frame
import proofs.«139306_j35287451304162_2_alg».proof.Proof.Spec
import proofs.«139306_j35287451304162_2_alg».proof.Proof.LibTileStack
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.Lib.TileStack

/-- The row and the column of position k of a 3 × 3 matrix stored row by row. -/
def row9 : Fin 9 → Fin 3 := ![0, 0, 0, 1, 1, 1, 2, 2, 2]
def col9 : Fin 9 → Fin 3 := ![0, 1, 2, 0, 1, 2, 0, 1, 2]

theorem row9_at9 (a b : Fin 3) : row9 (Cert.Spec.at9 a b) = a := by fin_cases a <;> fin_cases b <;> rfl
theorem col9_at9 (a b : Fin 3) : col9 (Cert.Spec.at9 a b) = b := by fin_cases a <;> fin_cases b <;> rfl

/-- Tile 3k + c of the forty-five. -/
abbrev at45 (k : Fin 15) (c : Fin 3) : Fin 45 := ⟨3 * k.val + c.val, by have := k.isLt; have := c.isLt; omega⟩

/-- What the covariance tile stack holds at (k, p, q), of the logits' and the quaternions' stacks. -/
def G5 {R : Nat} (x0 : (⟨3, ![3, R, 128]⟩ : Shape).Idx → EReal) (x1 : (⟨3, ![4, R, 128]⟩ : Shape).Idx → EReal) :
    (⟨3, ![9, R, 128]⟩ : Shape).Idx → EReal :=
  fun y => Cert.Spec.cov (fun j => x0 (ix3 j (y 1) (y 2))) (fun k => x1 (ix3 k (y 1) (y 2))) (row9 (y 0)) (col9 (y 0))

/-- What the colour tile stack holds at (c, p, q), of the coefficients' and the directions' stacks. -/
def G6 {R : Nat} (x2 : (⟨3, ![3, R, 128]⟩ : Shape).Idx → EReal) (x3 : (⟨3, ![45, R, 128]⟩ : Shape).Idx → EReal)
    (x4 : (⟨3, ![3, R, 128]⟩ : Shape).Idx → EReal) : (⟨3, ![3, R, 128]⟩ : Shape).Idx → EReal :=
  fun y => Cert.Spec.col (x4 (ix3 0 (y 1) (y 2))) (x4 (ix3 1 (y 1) (y 2))) (x4 (ix3 2 (y 1) (y 2))) (x2 (ix3 (y 0) (y 1) (y 2)))
    (fun k => x3 (ix3 (at45 k (y 0)) (y 1) (y 2)))

theorem hz3 : (![0, 0, 0] : Fin 3 → Nat) = fun _ => 0 := funext fun a => by fin_cases a <;> rfl

/-! ## The nine covariance tiles -/

theorem piece0 (x0 : Vec Ideal S3x128x128 .f32) (x1 : Vec Ideal S4x128x128 .f32) (x : S1x128x128.Idx) :
    k0_pay35 (k0_pay2 (View.ld x0 r0_0)) (k0_pay3 (View.ld x0 r0_0)) (k0_pay4 (View.ld x0 r0_0)) (k0_pay20 (View.ld x1 r0_1)) (k0_pay21 (View.ld x1 r0_1)) (k0_pay22 (View.ld x1 r0_1)) (k0_pay23 (View.ld x1 r0_1)) (k0_pay25 (View.ld x1 r0_1)) x
      = G5 x0 x1 (r0_2.emb x) := by
  obtain ⟨u, p, q, rfl⟩ : ∃ (u : Fin 1) (p q : Fin 128), x = ix3 u p q := ⟨x 0, x 1, x 2, eq_ix3 x⟩
  have hemb : r0_2.emb (ix3 u p q) = ix3 (0 : Fin 9) p q := by
    funext a; apply Fin.ext
    match a with
    | ⟨0, _⟩ => show 0 + 1 * u.val = 0; omega
    | ⟨1, _⟩ => show 0 + 1 * p.val = p.val; omega
    | ⟨2, _⟩ => show 0 + 1 * q.val = q.val; omega
  rw [hemb]
  simp only [View.ld_unit_zero (S := S3x128x128) hz3, View.ld_unit_zero (S := S4x128x128) hz3]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45,
    shapeCast_1ab_ab_apply, shapeCast_ab_1ab_apply, slice3_axis0_eq, shapeCast_self, mulf, addf, subf, divf, maximumf, sqrt, exp, broadcast]
  rfl

theorem piece1 (x0 : Vec Ideal S3x128x128 .f32) (x1 : Vec Ideal S4x128x128 .f32) (x : S1x128x128.Idx) :
    k0_pay37 (k0_pay36 (k0_pay2 (View.ld x0 r0_0)) (k0_pay3 (View.ld x0 r0_0)) (k0_pay4 (View.ld x0 r0_0)) (k0_pay15 (View.ld x1 r0_1)) (k0_pay16 (View.ld x1 r0_1)) (k0_pay17 (View.ld x1 r0_1)) (k0_pay18 (View.ld x1 r0_1)) (k0_pay19 (View.ld x1 r0_1)) (k0_pay20 (View.ld x1 r0_1)) (k0_pay21 (View.ld x1 r0_1)) (k0_pay22 (View.ld x1 r0_1)) (k0_pay23 (View.ld x1 r0_1)) (k0_pay24 (View.ld x1 r0_1)) (k0_pay25 (View.ld x1 r0_1))) x
      = G5 x0 x1 (r0_3.emb x) := by
  obtain ⟨u, p, q, rfl⟩ : ∃ (u : Fin 1) (p q : Fin 128), x = ix3 u p q := ⟨x 0, x 1, x 2, eq_ix3 x⟩
  have hemb : r0_3.emb (ix3 u p q) = ix3 (1 : Fin 9) p q := by
    funext a; apply Fin.ext
    match a with
    | ⟨0, _⟩ => show 1 + 1 * u.val = 1; omega
    | ⟨1, _⟩ => show 0 + 1 * p.val = p.val; omega
    | ⟨2, _⟩ => show 0 + 1 * q.val = q.val; omega
  rw [hemb]
  simp only [View.ld_unit_zero (S := S3x128x128) hz3, View.ld_unit_zero (S := S4x128x128) hz3]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45,
    shapeCast_1ab_ab_apply, shapeCast_ab_1ab_apply, slice3_axis0_eq, shapeCast_self, mulf, addf, subf, divf, maximumf, sqrt, exp, broadcast]
  rfl

theorem piece2 (x0 : Vec Ideal S3x128x128 .f32) (x1 : Vec Ideal S4x128x128 .f32) (x : S1x128x128.Idx) :
    k0_pay38 (k0_pay26 (k0_pay2 (View.ld x0 r0_0)) (k0_pay25 (View.ld x1 r0_1))) (k0_pay27 (k0_pay3 (View.ld x0 r0_0)) (k0_pay21 (View.ld x1 r0_1)) (k0_pay22 (View.ld x1 r0_1))) (k0_pay28 (k0_pay4 (View.ld x0 r0_0)) (k0_pay20 (View.ld x1 r0_1)) (k0_pay23 (View.ld x1 r0_1))) (k0_pay32 (k0_pay2 (View.ld x0 r0_0)) (k0_pay20 (View.ld x1 r0_1)) (k0_pay23 (View.ld x1 r0_1))) (k0_pay33 (k0_pay3 (View.ld x0 r0_0)) (k0_pay19 (View.ld x1 r0_1)) (k0_pay24 (View.ld x1 r0_1))) (k0_pay34 (k0_pay4 (View.ld x0 r0_0)) (k0_pay15 (View.ld x1 r0_1)) (k0_pay16 (View.ld x1 r0_1)) (k0_pay17 (View.ld x1 r0_1)) (k0_pay18 (View.ld x1 r0_1))) x
      = G5 x0 x1 (r0_4.emb x) := by
  obtain ⟨u, p, q, rfl⟩ : ∃ (u : Fin 1) (p q : Fin 128), x = ix3 u p q := ⟨x 0, x 1, x 2, eq_ix3 x⟩
  have hemb : r0_4.emb (ix3 u p q) = ix3 (2 : Fin 9) p q := by
    funext a; apply Fin.ext
    match a with
    | ⟨0, _⟩ => show 2 + 1 * u.val = 2; omega
    | ⟨1, _⟩ => show 0 + 1 * p.val = p.val; omega
    | ⟨2, _⟩ => show 0 + 1 * q.val = q.val; omega
  rw [hemb]
  simp only [View.ld_unit_zero (S := S3x128x128) hz3, View.ld_unit_zero (S := S4x128x128) hz3]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45,
    shapeCast_1ab_ab_apply, shapeCast_ab_1ab_apply, slice3_axis0_eq, shapeCast_self, mulf, addf, subf, divf, maximumf, sqrt, exp, broadcast]
  rfl

theorem piece3 (x0 : Vec Ideal S3x128x128 .f32) (x1 : Vec Ideal S4x128x128 .f32) (x : S1x128x128.Idx) :
    k0_pay39 (k0_pay26 (k0_pay2 (View.ld x0 r0_0)) (k0_pay25 (View.ld x1 r0_1))) (k0_pay27 (k0_pay3 (View.ld x0 r0_0)) (k0_pay21 (View.ld x1 r0_1)) (k0_pay22 (View.ld x1 r0_1))) (k0_pay28 (k0_pay4 (View.ld x0 r0_0)) (k0_pay20 (View.ld x1 r0_1)) (k0_pay23 (View.ld x1 r0_1))) (k0_pay29 (k0_pay2 (View.ld x0 r0_0)) (k0_pay21 (View.ld x1 r0_1)) (k0_pay22 (View.ld x1 r0_1))) (k0_pay30 (k0_pay3 (View.ld x0 r0_0)) (k0_pay15 (View.ld x1 r0_1)) (k0_pay16 (View.ld x1 r0_1)) (k0_pay17 (View.ld x1 r0_1)) (k0_pay18 (View.ld x1 r0_1))) (k0_pay31 (k0_pay4 (View.ld x0 r0_0)) (k0_pay19 (View.ld x1 r0_1)) (k0_pay24 (View.ld x1 r0_1))) x
      = G5 x0 x1 (r0_5.emb x) := by
  obtain ⟨u, p, q, rfl⟩ : ∃ (u : Fin 1) (p q : Fin 128), x = ix3 u p q := ⟨x 0, x 1, x 2, eq_ix3 x⟩
  have hemb : r0_5.emb (ix3 u p q) = ix3 (3 : Fin 9) p q := by
    funext a; apply Fin.ext
    match a with
    | ⟨0, _⟩ => show 3 + 1 * u.val = 3; omega
    | ⟨1, _⟩ => show 0 + 1 * p.val = p.val; omega
    | ⟨2, _⟩ => show 0 + 1 * q.val = q.val; omega
  rw [hemb]
  simp only [View.ld_unit_zero (S := S3x128x128) hz3, View.ld_unit_zero (S := S4x128x128) hz3]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45,
    shapeCast_1ab_ab_apply, shapeCast_ab_1ab_apply, slice3_axis0_eq, shapeCast_self, mulf, addf, subf, divf, maximumf, sqrt, exp, broadcast]
  rfl

theorem piece4 (x0 : Vec Ideal S3x128x128 .f32) (x1 : Vec Ideal S4x128x128 .f32) (x : S1x128x128.Idx) :
    k0_pay40 (k0_pay29 (k0_pay2 (View.ld x0 r0_0)) (k0_pay21 (View.ld x1 r0_1)) (k0_pay22 (View.ld x1 r0_1))) (k0_pay30 (k0_pay3 (View.ld x0 r0_0)) (k0_pay15 (View.ld x1 r0_1)) (k0_pay16 (View.ld x1 r0_1)) (k0_pay17 (View.ld x1 r0_1)) (k0_pay18 (View.ld x1 r0_1))) (k0_pay31 (k0_pay4 (View.ld x0 r0_0)) (k0_pay19 (View.ld x1 r0_1)) (k0_pay24 (View.ld x1 r0_1))) x
      = G5 x0 x1 (r0_6.emb x) := by
  obtain ⟨u, p, q, rfl⟩ : ∃ (u : Fin 1) (p q : Fin 128), x = ix3 u p q := ⟨x 0, x 1, x 2, eq_ix3 x⟩
  have hemb : r0_6.emb (ix3 u p q) = ix3 (4 : Fin 9) p q := by
    funext a; apply Fin.ext
    match a with
    | ⟨0, _⟩ => show 4 + 1 * u.val = 4; omega
    | ⟨1, _⟩ => show 0 + 1 * p.val = p.val; omega
    | ⟨2, _⟩ => show 0 + 1 * q.val = q.val; omega
  rw [hemb]
  simp only [View.ld_unit_zero (S := S3x128x128) hz3, View.ld_unit_zero (S := S4x128x128) hz3]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45,
    shapeCast_1ab_ab_apply, shapeCast_ab_1ab_apply, slice3_axis0_eq, shapeCast_self, mulf, addf, subf, divf, maximumf, sqrt, exp, broadcast]
  rfl

theorem piece5 (x0 : Vec Ideal S3x128x128 .f32) (x1 : Vec Ideal S4x128x128 .f32) (x : S1x128x128.Idx) :
    k0_pay41 (k0_pay29 (k0_pay2 (View.ld x0 r0_0)) (k0_pay21 (View.ld x1 r0_1)) (k0_pay22 (View.ld x1 r0_1))) (k0_pay30 (k0_pay3 (View.ld x0 r0_0)) (k0_pay15 (View.ld x1 r0_1)) (k0_pay16 (View.ld x1 r0_1)) (k0_pay17 (View.ld x1 r0_1)) (k0_pay18 (View.ld x1 r0_1))) (k0_pay31 (k0_pay4 (View.ld x0 r0_0)) (k0_pay19 (View.ld x1 r0_1)) (k0_pay24 (View.ld x1 r0_1))) (k0_pay32 (k0_pay2 (View.ld x0 r0_0)) (k0_pay20 (View.ld x1 r0_1)) (k0_pay23 (View.ld x1 r0_1))) (k0_pay33 (k0_pay3 (View.ld x0 r0_0)) (k0_pay19 (View.ld x1 r0_1)) (k0_pay24 (View.ld x1 r0_1))) (k0_pay34 (k0_pay4 (View.ld x0 r0_0)) (k0_pay15 (View.ld x1 r0_1)) (k0_pay16 (View.ld x1 r0_1)) (k0_pay17 (View.ld x1 r0_1)) (k0_pay18 (View.ld x1 r0_1))) x
      = G5 x0 x1 (r0_7.emb x) := by
  obtain ⟨u, p, q, rfl⟩ : ∃ (u : Fin 1) (p q : Fin 128), x = ix3 u p q := ⟨x 0, x 1, x 2, eq_ix3 x⟩
  have hemb : r0_7.emb (ix3 u p q) = ix3 (5 : Fin 9) p q := by
    funext a; apply Fin.ext
    match a with
    | ⟨0, _⟩ => show 5 + 1 * u.val = 5; omega
    | ⟨1, _⟩ => show 0 + 1 * p.val = p.val; omega
    | ⟨2, _⟩ => show 0 + 1 * q.val = q.val; omega
  rw [hemb]
  simp only [View.ld_unit_zero (S := S3x128x128) hz3, View.ld_unit_zero (S := S4x128x128) hz3]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45,
    shapeCast_1ab_ab_apply, shapeCast_ab_1ab_apply, slice3_axis0_eq, shapeCast_self, mulf, addf, subf, divf, maximumf, sqrt, exp, broadcast]
  rfl

theorem piece6 (x0 : Vec Ideal S3x128x128 .f32) (x1 : Vec Ideal S4x128x128 .f32) (x : S1x128x128.Idx) :
    k0_pay43 (k0_pay42 (k0_pay26 (k0_pay2 (View.ld x0 r0_0)) (k0_pay25 (View.ld x1 r0_1))) (k0_pay27 (k0_pay3 (View.ld x0 r0_0)) (k0_pay21 (View.ld x1 r0_1)) (k0_pay22 (View.ld x1 r0_1))) (k0_pay28 (k0_pay4 (View.ld x0 r0_0)) (k0_pay20 (View.ld x1 r0_1)) (k0_pay23 (View.ld x1 r0_1))) (k0_pay32 (k0_pay2 (View.ld x0 r0_0)) (k0_pay20 (View.ld x1 r0_1)) (k0_pay23 (View.ld x1 r0_1))) (k0_pay33 (k0_pay3 (View.ld x0 r0_0)) (k0_pay19 (View.ld x1 r0_1)) (k0_pay24 (View.ld x1 r0_1))) (k0_pay34 (k0_pay4 (View.ld x0 r0_0)) (k0_pay15 (View.ld x1 r0_1)) (k0_pay16 (View.ld x1 r0_1)) (k0_pay17 (View.ld x1 r0_1)) (k0_pay18 (View.ld x1 r0_1)))) x
      = G5 x0 x1 (r0_8.emb x) := by
  obtain ⟨u, p, q, rfl⟩ : ∃ (u : Fin 1) (p q : Fin 128), x = ix3 u p q := ⟨x 0, x 1, x 2, eq_ix3 x⟩
  have hemb : r0_8.emb (ix3 u p q) = ix3 (6 : Fin 9) p q := by
    funext a; apply Fin.ext
    match a with
    | ⟨0, _⟩ => show 6 + 1 * u.val = 6; omega
    | ⟨1, _⟩ => show 0 + 1 * p.val = p.val; omega
    | ⟨2, _⟩ => show 0 + 1 * q.val = q.val; omega
  rw [hemb]
  simp only [View.ld_unit_zero (S := S3x128x128) hz3, View.ld_unit_zero (S := S4x128x128) hz3]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45,
    shapeCast_1ab_ab_apply, shapeCast_ab_1ab_apply, slice3_axis0_eq, shapeCast_self, mulf, addf, subf, divf, maximumf, sqrt, exp, broadcast]
  rfl

theorem piece7 (x0 : Vec Ideal S3x128x128 .f32) (x1 : Vec Ideal S4x128x128 .f32) (x : S1x128x128.Idx) :
    k0_pay44 (k0_pay29 (k0_pay2 (View.ld x0 r0_0)) (k0_pay21 (View.ld x1 r0_1)) (k0_pay22 (View.ld x1 r0_1))) (k0_pay30 (k0_pay3 (View.ld x0 r0_0)) (k0_pay15 (View.ld x1 r0_1)) (k0_pay16 (View.ld x1 r0_1)) (k0_pay17 (View.ld x1 r0_1)) (k0_pay18 (View.ld x1 r0_1))) (k0_pay31 (k0_pay4 (View.ld x0 r0_0)) (k0_pay19 (View.ld x1 r0_1)) (k0_pay24 (View.ld x1 r0_1))) (k0_pay32 (k0_pay2 (View.ld x0 r0_0)) (k0_pay20 (View.ld x1 r0_1)) (k0_pay23 (View.ld x1 r0_1))) (k0_pay33 (k0_pay3 (View.ld x0 r0_0)) (k0_pay19 (View.ld x1 r0_1)) (k0_pay24 (View.ld x1 r0_1))) (k0_pay34 (k0_pay4 (View.ld x0 r0_0)) (k0_pay15 (View.ld x1 r0_1)) (k0_pay16 (View.ld x1 r0_1)) (k0_pay17 (View.ld x1 r0_1)) (k0_pay18 (View.ld x1 r0_1))) x
      = G5 x0 x1 (r0_9.emb x) := by
  obtain ⟨u, p, q, rfl⟩ : ∃ (u : Fin 1) (p q : Fin 128), x = ix3 u p q := ⟨x 0, x 1, x 2, eq_ix3 x⟩
  have hemb : r0_9.emb (ix3 u p q) = ix3 (7 : Fin 9) p q := by
    funext a; apply Fin.ext
    match a with
    | ⟨0, _⟩ => show 7 + 1 * u.val = 7; omega
    | ⟨1, _⟩ => show 0 + 1 * p.val = p.val; omega
    | ⟨2, _⟩ => show 0 + 1 * q.val = q.val; omega
  rw [hemb]
  simp only [View.ld_unit_zero (S := S3x128x128) hz3, View.ld_unit_zero (S := S4x128x128) hz3]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45,
    shapeCast_1ab_ab_apply, shapeCast_ab_1ab_apply, slice3_axis0_eq, shapeCast_self, mulf, addf, subf, divf, maximumf, sqrt, exp, broadcast]
  rfl

theorem piece8 (x0 : Vec Ideal S3x128x128 .f32) (x1 : Vec Ideal S4x128x128 .f32) (x : S1x128x128.Idx) :
    k0_pay45 (k0_pay32 (k0_pay2 (View.ld x0 r0_0)) (k0_pay20 (View.ld x1 r0_1)) (k0_pay23 (View.ld x1 r0_1))) (k0_pay33 (k0_pay3 (View.ld x0 r0_0)) (k0_pay19 (View.ld x1 r0_1)) (k0_pay24 (View.ld x1 r0_1))) (k0_pay34 (k0_pay4 (View.ld x0 r0_0)) (k0_pay15 (View.ld x1 r0_1)) (k0_pay16 (View.ld x1 r0_1)) (k0_pay17 (View.ld x1 r0_1)) (k0_pay18 (View.ld x1 r0_1))) x
      = G5 x0 x1 (r0_10.emb x) := by
  obtain ⟨u, p, q, rfl⟩ : ∃ (u : Fin 1) (p q : Fin 128), x = ix3 u p q := ⟨x 0, x 1, x 2, eq_ix3 x⟩
  have hemb : r0_10.emb (ix3 u p q) = ix3 (8 : Fin 9) p q := by
    funext a; apply Fin.ext
    match a with
    | ⟨0, _⟩ => show 8 + 1 * u.val = 8; omega
    | ⟨1, _⟩ => show 0 + 1 * p.val = p.val; omega
    | ⟨2, _⟩ => show 0 + 1 * q.val = q.val; omega
  rw [hemb]
  simp only [View.ld_unit_zero (S := S3x128x128) hz3, View.ld_unit_zero (S := S4x128x128) hz3]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45,
    shapeCast_1ab_ab_apply, shapeCast_ab_1ab_apply, slice3_axis0_eq, shapeCast_self, mulf, addf, subf, divf, maximumf, sqrt, exp, broadcast]
  rfl

/-- The covariance stack after the body, at every index. -/
theorem out5_apply (x0 : Vec Ideal S3x128x128 .f32) (x1 : Vec Ideal S4x128x128 .f32) (x2 : Vec Ideal S3x128x128 .f32)
    (x3 : Vec Ideal S45x128x128 .f32) (x4 : Vec Ideal S3x128x128 .f32) (y : S9x128x128.Idx) :
    out0_5 (F := Ideal) x0 x1 x2 x3 x4 y = G5 x0 x1 y := by
  unfold out0_5
  refine View.canon_apply_of_pieces (Val := Elt Ideal) (e := .f32) (G5 x0 x1) _ ?_ y (cover0_5 _ _ _ _ _ _ _ _ _ y)
  intro pc hpc x
  simp only [List.mem_cons, List.not_mem_nil, or_false] at hpc
  rcases hpc with rfl | rfl | rfl | rfl | rfl | rfl | rfl | rfl | rfl
  · exact piece8 x0 x1 x
  · exact piece7 x0 x1 x
  · exact piece6 x0 x1 x
  · exact piece5 x0 x1 x
  · exact piece4 x0 x1 x
  · exact piece3 x0 x1 x
  · exact piece2 x0 x1 x
  · exact piece1 x0 x1 x
  · exact piece0 x0 x1 x

/-! ## The colour tiles -/

/-- The colour stack after the body, at every index. -/
theorem out6_apply (x0 : Vec Ideal S3x128x128 .f32) (x1 : Vec Ideal S4x128x128 .f32) (x2 : Vec Ideal S3x128x128 .f32)
    (x3 : Vec Ideal S45x128x128 .f32) (x4 : Vec Ideal S3x128x128 .f32) (y : S3x128x128.Idx) :
    out0_6 (F := Ideal) x0 x1 x2 x3 x4 y = G6 x2 x3 x4 y := by
  obtain ⟨c, p, q, rfl⟩ : ∃ (c : Fin 3) (p q : Fin 128), y = ix3 c p q := ⟨y 0, y 1, y 2, eq_ix3 y⟩
  unfold out0_6
  rw [View.canon_unit_zero hz3]
  simp only [View.ld_unit_zero (S := S3x128x128) hz3, View.ld_unit_zero (S := S45x128x128) hz3]
  simp only [k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77,
    shapeCast_1ab_ab_apply, shapeCast_ab_1ab_apply, slice3_axis0_eq, broadcastTo_1ab_mab_apply, shapeCast_self,
    mulf, addf, subf, maximumf, minimumf, broadcast]
  rfl

end Cert.KernelIdeal.Body

end
-- ==== Proof.HostIn.lean ====
/-
  The five arrays the region finds, read at a point.

  Before the call the host turns each point-major argument [N, c] into channel-major tiles: it transposes it to
  [c, N], pads the points with the converted integer zero up to 15744 · 128 of them, and cuts the points into 15744
  rows of 128 lanes.  Point n therefore sits at row n / 128 and lane n mod 128 of every channel, and for n < N the
  padding is never read: at (j, n / 128, n mod 128) the tiles hold the argument at (n, j).  The constant colour
  coefficients [N, 1, 3] and the fifteen others [N, 15, 3] are first flattened to [N, 3] and [N, 45], coefficient k of
  channel c going to column 3 k + c.
-/
import proofs.«139306_j35287451304162_2_alg».proof.Proof.Gen.KernelIdeal.Frame
import proofs.«139306_j35287451304162_2_alg».proof.Proof.Body
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

noncomputable section

namespace Cert.KernelIdeal.HostIn

open Cert.KernelIdeal Cert.KernelIdeal.Gen Cert.KernelIdeal.Body Idealize.ShloMosaic Idealize.ShloMosaic.TcCoe Idealize.SL.Sem
open Idealize.ShloMosaic.ValueIdx Idealize.ShloMosaic.StableHlo

/-- The row and the lane of point `n` in the tiles. -/
def rowN (n : Fin 2000000) : Fin 15744 := ⟨n.val / 128, by have := n.isLt; omega⟩
def laneN (n : Fin 2000000) : Fin 128 := ⟨n.val % 128, Nat.mod_lt _ (by decide)⟩

/-- A point-major array transposed, padded along the points and cut into rows of lanes, read at channel `j` and the
    position of point `n`, is the array at `(n, j)`. -/
theorem tiles_apply {α : Type} {c : Nat} (x : (⟨2, ![2000000, c]⟩ : Shape).Idx → α) {u : Shape} (v : u.Idx → α) (hu : 0 < u.numel)
    (hT : (⟨2, ![2000000, c]⟩ : Shape).Transposes [1, 0] ⟨2, ![c, 2000000]⟩)
    (hP : (⟨2, ![c, 2000000]⟩ : Shape).Pads ![0, 0] ![0, 15232] ![0, 0] ⟨2, ![c, 2015232]⟩)
    (hC : (⟨2, ![c, 2015232]⟩ : Shape).ShapeCasts ⟨3, ![c, 15744, 128]⟩) (n : Fin 2000000) (j : Fin c) :
    shapeCast ⟨3, ![c, 15744, 128]⟩
        (pad ⟨2, ![c, 2015232]⟩ ![0, 0] ![0, 15232] ![0, 0] (transpose ⟨2, ![c, 2000000]⟩ [1, 0] x hT) v hP hu) hC
        (ix3 j (rowN n) (laneN n))
      = x (ix2 n j) := by
  have hn := n.isLt
  refine (shapeCast_apply _ hC (ix3 j (rowN n) (laneN n)) (ix2 j (⟨n.val, by omega⟩ : Fin 2015232)) ?_).trans ?_
  · rw [Shape.rowMajor_val_two, Shape.rowMajor_val_three]
    show j.val * 2015232 + n.val = (j.val * 15744 + n.val / 128) * 128 + n.val % 128
    omega
  refine (pad_apply_of_inside _ _ _ _ v hP hu (ix2 j (⟨n.val, by omega⟩ : Fin 2015232)) (ix2 j n) ?_).trans ?_
  · intro a
    match a with
    | ⟨0, _⟩ => show j.val = 0 + j.val * (0 + 1); omega
    | ⟨1, _⟩ => show n.val = 0 + n.val * (0 + 1); omega
  exact transpose_ix2_apply x hT j n

variable (m : (ℓ : Loc nD τ sig) → Buf (Elt Ideal) ℓ)

/-- The logits' tiles at the position of point `n`. -/
theorem V8_apply (c : Dev nD) (n : Fin 2000000) (j : Fin 3) :
    V m c main_v8 (ix3 j (rowN n) (laneN n)) = m ((c.tc : Thread nD τ).loc main_arg0) (ix2 n j) := by
  have e : (V m c main_v8 : S3x15744x128.Idx → EReal) = shapeCast S3x15744x128 (pad S3x2015232 ![0, 0] ![0, 15232] ![0, 0]
      (transpose S3x2000000 [1, 0] (m ((c.tc : Thread nD τ).loc main_arg0)) transposes_S2000000x3_S3x2000000_1_0)
      (sitofp (F := Ideal) .f32 (constantI S_ 32 0#32)) pads_S3x2000000_S3x2015232_000_0152320 h_S_) shapeCasts_S3x2015232_S3x15744x128 := by
    dsimp only [V, V0]
    simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
    after_results; funext i; rfl
  exact (congrFun e _).trans (tiles_apply _ _ _ _ _ _ n j)

/-- The quaternions' tiles at the position of point `n`. -/
theorem V10_apply (c : Dev nD) (n : Fin 2000000) (j : Fin 4) :
    V m c main_v10 (ix3 j (rowN n) (laneN n)) = m ((c.tc : Thread nD τ).loc main_arg1) (ix2 n j) := by
  have e : (V m c main_v10 : S4x15744x128.Idx → EReal) = shapeCast S4x15744x128 (pad S4x2015232 ![0, 0] ![0, 15232] ![0, 0]
      (transpose S4x2000000 [1, 0] (m ((c.tc : Thread nD τ).loc main_arg1)) transposes_S2000000x4_S4x2000000_1_0)
      (sitofp (F := Ideal) .f32 (constantI S_ 32 0#32)) pads_S4x2000000_S4x2015232_000_0152320 h_S_) shapeCasts_S4x2015232_S4x15744x128 := by
    dsimp only [V, V0]
    simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
    after_results; funext i; rfl
  exact (congrFun e _).trans (tiles_apply _ _ _ _ _ _ n j)

/-- The constant colour coefficients' tiles at the position of point `n`. -/
theorem V12_apply (c : Dev nD) (n : Fin 2000000) (j : Fin 3) :
    V m c main_v12 (ix3 j (rowN n) (laneN n)) = m ((c.tc : Thread nD τ).loc main_arg2) (ix3 n 0 j) := by
  have e : (V m c main_v12 : S3x15744x128.Idx → EReal) = shapeCast S3x15744x128 (pad S3x2015232 ![0, 0] ![0, 15232] ![0, 0]
      (transpose S3x2000000 [1, 0] (shapeCast S2000000x3 (m ((c.tc : Thread nD τ).loc main_arg2)) shapeCasts_S2000000x1x3_S2000000x3) transposes_S2000000x3_S3x2000000_1_0)
      (sitofp (F := Ideal) .f32 (constantI S_ 32 0#32)) pads_S3x2000000_S3x2015232_000_0152320 h_S_) shapeCasts_S3x2015232_S3x15744x128 := by
    dsimp only [V, V0]
    simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
    after_results; funext i; rfl
  refine ((congrFun e _).trans (tiles_apply _ _ _ _ _ _ n j)).trans ?_
  refine shapeCast_apply _ shapeCasts_S2000000x1x3_S2000000x3 (ix2 n j) (ix3 n (0 : Fin 1) j) ?_
  rw [Shape.rowMajor_val_two, Shape.rowMajor_val_three]
  show (n.val * 1 + 0) * 3 + j.val = n.val * 3 + j.val
  omega

/-- The other colour coefficients' tiles at the position of point `n`: tile `3 k + c` holds coefficient `k` of
    channel `c`. -/
theorem V14_apply (c : Dev nD) (n : Fin 2000000) (k : Fin 15) (j : Fin 3) :
    V m c main_v14 (ix3 (at45 k j) (rowN n) (laneN n)) = m ((c.tc : Thread nD τ).loc main_arg3) (ix3 n k j) := by
  have e : (V m c main_v14 : S45x15744x128.Idx → EReal) = shapeCast S45x15744x128 (pad S45x2015232 ![0, 0] ![0, 15232] ![0, 0]
      (transpose S45x2000000 [1, 0] (shapeCast S2000000x45 (m ((c.tc : Thread nD τ).loc main_arg3)) shapeCasts_S2000000x15x3_S2000000x45) transposes_S2000000x45_S45x2000000_1_0)
      (sitofp (F := Ideal) .f32 (constantI S_ 32 0#32)) pads_S45x2000000_S45x2015232_000_0152320 h_S_) shapeCasts_S45x2015232_S45x15744x128 := by
    dsimp only [V, V0]
    simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
    after_results; funext i; rfl
  refine ((congrFun e _).trans (tiles_apply _ _ _ _ _ _ n (at45 k j))).trans ?_
  refine shapeCast_apply _ shapeCasts_S2000000x15x3_S2000000x45 (ix2 n (at45 k j)) (ix3 n k j) ?_
  rw [Shape.rowMajor_val_two, Shape.rowMajor_val_three]
  show (n.val * 15 + k.val) * 3 + j.val = n.val * 45 + (3 * k.val + j.val)
  omega

/-- The directions' tiles at the position of point `n`. -/
theorem V16_apply (c : Dev nD) (n : Fin 2000000) (j : Fin 3) :
    V m c main_v16 (ix3 j (rowN n) (laneN n)) = m ((c.tc : Thread nD τ).loc main_arg4) (ix2 n j) := by
  have e : (V m c main_v16 : S3x15744x128.Idx → EReal) = shapeCast S3x15744x128 (pad S3x2015232 ![0, 0] ![0, 15232] ![0, 0]
      (transpose S3x2000000 [1, 0] (m ((c.tc : Thread nD τ).loc main_arg4)) transposes_S2000000x3_S3x2000000_1_0)
      (sitofp (F := Ideal) .f32 (constantI S_ 32 0#32)) pads_S3x2000000_S3x2015232_000_0152320 h_S_) shapeCasts_S3x2015232_S3x15744x128 := by
    dsimp only [V, V0]
    simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
    after_results; funext i; rfl
  exact (congrFun e _).trans (tiles_apply _ _ _ _ _ _ n j)

end Cert.KernelIdeal.HostIn

end
-- ==== Proof.BlockIndex.lean ====
/-
  Where the blocks of the call sit in their arrays.

  Every window of the call moves with the grid point along the rows: at point t its block is rows 128 t … 128 t + 127
  of its array, all channels and all lanes.  So a block read at tile position (j, p, q) is the array at
  (j, 128 t + p, q), whatever the array holds, and row r of an output array lies in the block of point r / 128: the
  output blocks tile their arrays.
-/
import proofs.«139306_j35287451304162_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The printed index maps, decided over the grid: at point `t` every window's block is block `(0, t, 0)`. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0)
    ∧ (win0_6.index t (0 : Fin 3) = 0 ∧ win0_6.index t (1 : Fin 3) = t.val ∧ win0_6.index t (2 : Fin 3) = 0) :=
  (by decide +kernel : ∀ t : Fin grid0.N, _)

/-- Row `p` of the block of point `t` is row `128 t + p` of the array. -/
def rowOf (t : Fin cfg0.N) (p : Fin 128) : Fin 15744 :=
  ⟨t.val * 128 + p.val, by have h : t.val < 123 := Nat.lt_of_lt_of_eq t.isLt N_0; have := p.isLt; omega⟩

/-! ## A block of any array, read at a tile position -/

/-- Window 0's block at point `t` of ANY array, read at tile position `(j, p, q)`, is the array at `(j, 128 t + p, q)`. -/
theorem blk0_read (A : S3x15744x128.Idx → EReal) (t : Fin cfg0.N) (j : Fin 3) (p q : Fin 128) :
    ((cfg0.win 0).blk t).view.read (Elt Ideal) A (ix3 j p q) = A (ix3 j (rowOf t p) q) := by
  obtain ⟨⟨e0, e1, e2⟩, -, -, -, -, -, -⟩ := idx_facts t
  show A (((cfg0.win 0).blk t).view.emb (ix3 j p q)) = _
  refine congrArg A (funext fun a => Fin.ext ?_)
  match a with
  | ⟨0, _⟩ => show win0_0.index t (0 : Fin 3) * 3 + 1 * j.val = j.val; omega
  | ⟨1, _⟩ => show win0_0.index t (1 : Fin 3) * 128 + 1 * p.val = t.val * 128 + p.val; omega
  | ⟨2, _⟩ => show win0_0.index t (2 : Fin 3) * 128 + 1 * q.val = q.val; omega

/-- Window 1's block at point `t` of ANY array, read at tile position `(j, p, q)`, is the array at `(j, 128 t + p, q)`. -/
theorem blk1_read (A : S4x15744x128.Idx → EReal) (t : Fin cfg0.N) (j : Fin 4) (p q : Fin 128) :
    ((cfg0.win 1).blk t).view.read (Elt Ideal) A (ix3 j p q) = A (ix3 j (rowOf t p) q) := by
  obtain ⟨-, ⟨e0, e1, e2⟩, -, -, -, -, -⟩ := idx_facts t
  show A (((cfg0.win 1).blk t).view.emb (ix3 j p q)) = _
  refine congrArg A (funext fun a => Fin.ext ?_)
  match a with
  | ⟨0, _⟩ => show win0_1.index t (0 : Fin 3) * 4 + 1 * j.val = j.val; omega
  | ⟨1, _⟩ => show win0_1.index t (1 : Fin 3) * 128 + 1 * p.val = t.val * 128 + p.val; omega
  | ⟨2, _⟩ => show win0_1.index t (2 : Fin 3) * 128 + 1 * q.val = q.val; omega

/-- Window 2's block at point `t` of ANY array, read at tile position `(j, p, q)`, is the array at `(j, 128 t + p, q)`. -/
theorem blk2_read (A : S3x15744x128.Idx → EReal) (t : Fin cfg0.N) (j : Fin 3) (p q : Fin 128) :
    ((cfg0.win 2).blk t).view.read (Elt Ideal) A (ix3 j p q) = A (ix3 j (rowOf t p) q) := by
  obtain ⟨-, -, ⟨e0, e1, e2⟩, -, -, -, -⟩ := idx_facts t
  show A (((cfg0.win 2).blk t).view.emb (ix3 j p q)) = _
  refine congrArg A (funext fun a => Fin.ext ?_)
  match a with
  | ⟨0, _⟩ => show win0_2.index t (0 : Fin 3) * 3 + 1 * j.val = j.val; omega
  | ⟨1, _⟩ => show win0_2.index t (1 : Fin 3) * 128 + 1 * p.val = t.val * 128 + p.val; omega
  | ⟨2, _⟩ => show win0_2.index t (2 : Fin 3) * 128 + 1 * q.val = q.val; omega

/-- Window 3's block at point `t` of ANY array, read at tile position `(j, p, q)`, is the array at `(j, 128 t + p, q)`. -/
theorem blk3_read (A : S45x15744x128.Idx → EReal) (t : Fin cfg0.N) (j : Fin 45) (p q : Fin 128) :
    ((cfg0.win 3).blk t).view.read (Elt Ideal) A (ix3 j p q) = A (ix3 j (rowOf t p) q) := by
  obtain ⟨-, -, -, ⟨e0, e1, e2⟩, -, -, -⟩ := idx_facts t
  show A (((cfg0.win 3).blk t).view.emb (ix3 j p q)) = _
  refine congrArg A (funext fun a => Fin.ext ?_)
  match a with
  | ⟨0, _⟩ => show win0_3.index t (0 : Fin 3) * 45 + 1 * j.val = j.val; omega
  | ⟨1, _⟩ => show win0_3.index t (1 : Fin 3) * 128 + 1 * p.val = t.val * 128 + p.val; omega
  | ⟨2, _⟩ => show win0_3.index t (2 : Fin 3) * 128 + 1 * q.val = q.val; omega

/-- Window 4's block at point `t` of ANY array, read at tile position `(j, p, q)`, is the array at `(j, 128 t + p, q)`. -/
theorem blk4_read (A : S3x15744x128.Idx → EReal) (t : Fin cfg0.N) (j : Fin 3) (p q : Fin 128) :
    ((cfg0.win 4).blk t).view.read (Elt Ideal) A (ix3 j p q) = A (ix3 j (rowOf t p) q) := by
  obtain ⟨-, -, -, -, ⟨e0, e1, e2⟩, -, -⟩ := idx_facts t
  show A (((cfg0.win 4).blk t).view.emb (ix3 j p q)) = _
  refine congrArg A (funext fun a => Fin.ext ?_)
  match a with
  | ⟨0, _⟩ => show win0_4.index t (0 : Fin 3) * 3 + 1 * j.val = j.val; omega
  | ⟨1, _⟩ => show win0_4.index t (1 : Fin 3) * 128 + 1 * p.val = t.val * 128 + p.val; omega
  | ⟨2, _⟩ => show win0_4.index t (2 : Fin 3) * 128 + 1 * q.val = q.val; omega

/-- Output window 5's block position in its array. -/
theorem emb5 (t : Fin cfg0.N) (k : Fin 9) (p q : Fin 128) :
    ((cfg0.win 5).blk t).view.emb (ix3 k p q) = ix3 k (rowOf t p) q := by
  obtain ⟨-, -, -, -, -, ⟨f0, f1, f2⟩, -⟩ := idx_facts t
  funext a; apply Fin.ext
  match a with
  | ⟨0, _⟩ => show win0_5.index t (0 : Fin 3) * 9 + 1 * k.val = k.val; omega
  | ⟨1, _⟩ => show win0_5.index t (1 : Fin 3) * 128 + 1 * p.val = t.val * 128 + p.val; omega
  | ⟨2, _⟩ => show win0_5.index t (2 : Fin 3) * 128 + 1 * q.val = q.val; omega

/-- Output window 6's block position in its array. -/
theorem emb6 (t : Fin cfg0.N) (k : Fin 3) (p q : Fin 128) :
    ((cfg0.win 6).blk t).view.emb (ix3 k p q) = ix3 k (rowOf t p) q := by
  obtain ⟨-, -, -, -, -, -, ⟨f0, f1, f2⟩⟩ := idx_facts t
  funext a; apply Fin.ext
  match a with
  | ⟨0, _⟩ => show win0_6.index t (0 : Fin 3) * 3 + 1 * k.val = k.val; omega
  | ⟨1, _⟩ => show win0_6.index t (1 : Fin 3) * 128 + 1 * p.val = t.val * 128 + p.val; omega
  | ⟨2, _⟩ => show win0_6.index t (2 : Fin 3) * 128 + 1 * q.val = q.val; omega

/-! ## The output blocks tile their arrays -/

/-- An index of output window 5's array is in point `t`'s block iff each coordinate is in the block's range. -/
theorem mem_blk5 (t : Fin cfg0.N) (i : S9x15744x128.Idx) :
    i ∈ ((cfg0.win 5).blk t).view.set ↔ ∀ a : Fin 3, win0_5.index t a * S9x128x128.size a ≤ (i a).val ∧ (i a).val < win0_5.index t a * S9x128x128.size a + S9x128x128.size a := by
  show i ∈ ((View.whole main_v17_0).slice (win0_5.rect t)).set ↔ _
  rw [View.set_slice_whole, Rect.mem_set_unit]
  exact Iff.rfl

/-- Row `r` of the array is in the block of point `r / 128`: the blocks tile the array. -/
theorem cover5 (i : S9x15744x128.Idx) : ∃ t : Fin cfg0.N, (cfg0.win 5).flush t = true ∧ i ∈ ((cfg0.win 5).blk t).view.set := by
  have h0 : (i 0).val < 9 := (i 0).isLt
  have h1 : (i 1).val < 15744 := (i 1).isLt
  have h2 : (i 2).val < 128 := (i 2).isLt
  have hN : cfg0.N = 123 := N_0
  refine ⟨⟨(i 1).val / 128, by rw [hN]; omega⟩, flush0_5 _, ?_⟩
  obtain ⟨-, -, -, -, -, ⟨f0, f1, f2⟩, -⟩ := idx_facts ⟨(i 1).val / 128, by rw [hN]; omega⟩
  rw [mem_blk5]
  intro a
  match a with
  | ⟨0, _⟩ =>
    show win0_5.index _ (0 : Fin 3) * 9 ≤ (i 0).val ∧ (i 0).val < win0_5.index _ (0 : Fin 3) * 9 + 9
    rw [f0]; omega
  | ⟨1, _⟩ =>
    show win0_5.index _ (1 : Fin 3) * 128 ≤ (i 1).val ∧ (i 1).val < win0_5.index _ (1 : Fin 3) * 128 + 128
    rw [f1]; show (i 1).val / 128 * 128 ≤ (i 1).val ∧ (i 1).val < (i 1).val / 128 * 128 + 128; omega
  | ⟨2, _⟩ =>
    show win0_5.index _ (2 : Fin 3) * 128 ≤ (i 2).val ∧ (i 2).val < win0_5.index _ (2 : Fin 3) * 128 + 128
    rw [f2]; omega

/-- An index of output window 6's array is in point `t`'s block iff each coordinate is in the block's range. -/
theorem mem_blk6 (t : Fin cfg0.N) (i : S3x15744x128.Idx) :
    i ∈ ((cfg0.win 6).blk t).view.set ↔ ∀ a : Fin 3, win0_6.index t a * S3x128x128.size a ≤ (i a).val ∧ (i a).val < win0_6.index t a * S3x128x128.size a + S3x128x128.size a := by
  show i ∈ ((View.whole main_v17_1).slice (win0_6.rect t)).set ↔ _
  rw [View.set_slice_whole, Rect.mem_set_unit]
  exact Iff.rfl

/-- Row `r` of the array is in the block of point `r / 128`: the blocks tile the array. -/
theorem cover6 (i : S3x15744x128.Idx) : ∃ t : Fin cfg0.N, (cfg0.win 6).flush t = true ∧ i ∈ ((cfg0.win 6).blk t).view.set := by
  have h0 : (i 0).val < 3 := (i 0).isLt
  have h1 : (i 1).val < 15744 := (i 1).isLt
  have h2 : (i 2).val < 128 := (i 2).isLt
  have hN : cfg0.N = 123 := N_0
  refine ⟨⟨(i 1).val / 128, by rw [hN]; omega⟩, flush0_6 _, ?_⟩
  obtain ⟨-, -, -, -, -, -, ⟨f0, f1, f2⟩⟩ := idx_facts ⟨(i 1).val / 128, by rw [hN]; omega⟩
  rw [mem_blk6]
  intro a
  match a with
  | ⟨0, _⟩ =>
    show win0_6.index _ (0 : Fin 3) * 3 ≤ (i 0).val ∧ (i 0).val < win0_6.index _ (0 : Fin 3) * 3 + 3
    rw [f0]; omega
  | ⟨1, _⟩ =>
    show win0_6.index _ (1 : Fin 3) * 128 ≤ (i 1).val ∧ (i 1).val < win0_6.index _ (1 : Fin 3) * 128 + 128
    rw [f1]; show (i 1).val / 128 * 128 ≤ (i 1).val ∧ (i 1).val < (i 1).val / 128 * 128 + 128; omega
  | ⟨2, _⟩ =>
    show win0_6.index _ (2 : Fin 3) * 128 ≤ (i 2).val ∧ (i 2).val < win0_6.index _ (2 : Fin 3) * 128 + 128
    rw [f2]; omega

end Cert.KernelIdeal.Blocks

end
-- ==== Proof.Blocks.lean ====
/-
  From the blocks to the two arrays the region leaves.

  What point t writes back is block t of ONE function of the five input arrays as the region finds them — at
  (k, r, l) the covariance entry, or the colour channel, of the point held at row r and lane l: the body's result at
  tile position (k, p, q) reads its input blocks at (·, p, q), which is the arrays at (·, 128 t + p, q), and that is
  where the output block sits in its array.  Since the output blocks tile their arrays, each array ends equal to that
  function.  The input arrays enter only as names: nothing here looks at what they hold.
-/
import proofs.«139306_j35287451304162_2_alg».proof.Proof.Gen.KernelIdeal.Frame
import proofs.«139306_j35287451304162_2_alg».proof.Proof.Body
import proofs.«139306_j35287451304162_2_alg».proof.Proof.BlockIndex
import Idealize.ShloMosaic.Lib.Pipeline.Value
import Idealize.ShloMosaic.Lib.ValueIdx

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

/-! ## One point's write-back, over any input arrays -/

/-- The covariance block of point `t` is block `t` of the covariance of the logits' and the quaternions' arrays. -/
theorem block5 (A0 : S3x15744x128.Idx → EReal) (A1 : S4x15744x128.Idx → EReal) (A2 : S3x15744x128.Idx → EReal)
    (A3 : S45x15744x128.Idx → EReal) (A4 : S3x15744x128.Idx → EReal) (t : Fin cfg0.N) :
    (cfg0.win 5).cut (grid0.coords t) (out0_5 (((cfg0.win 0).blk t).view.read (Elt Ideal) A0) (((cfg0.win 1).blk t).view.read (Elt Ideal) A1)
        (((cfg0.win 2).blk t).view.read (Elt Ideal) A2) (((cfg0.win 3).blk t).view.read (Elt Ideal) A3) (((cfg0.win 4).blk t).view.read (Elt Ideal) A4))
      = ((cfg0.win 5).blk t).view.read (Elt Ideal) (G5 A0 A1) := by
  funext y
  obtain ⟨k, p, q, rfl⟩ : ∃ (k : Fin 9) (p q : Fin 128), y = ix3 k p q := ⟨y 0, y 1, y 2, eq_ix3 y⟩
  show out0_5 (((cfg0.win 0).blk t).view.read (Elt Ideal) A0) (((cfg0.win 1).blk t).view.read (Elt Ideal) A1)
        (((cfg0.win 2).blk t).view.read (Elt Ideal) A2) (((cfg0.win 3).blk t).view.read (Elt Ideal) A3) (((cfg0.win 4).blk t).view.read (Elt Ideal) A4) (ix3 k p q)
    = G5 A0 A1 (((cfg0.win 5).blk t).view.emb (ix3 k p q))
  rw [emb5 t k p q]
  refine (out5_apply _ _ _ _ _ (ix3 k p q)).trans ?_
  show Cert.Spec.cov (fun j => ((cfg0.win 0).blk t).view.read (Elt Ideal) A0 (ix3 j p q)) (fun j => ((cfg0.win 1).blk t).view.read (Elt Ideal) A1 (ix3 j p q)) (row9 k) (col9 k)
    = Cert.Spec.cov (fun j => A0 (ix3 j (rowOf t p) q)) (fun j => A1 (ix3 j (rowOf t p) q)) (row9 k) (col9 k)
  rw [show (fun j => ((cfg0.win 0).blk t).view.read (Elt Ideal) A0 (ix3 j p q)) = (fun j => A0 (ix3 j (rowOf t p) q)) from funext fun j => blk0_read A0 t j p q,
    show (fun j => ((cfg0.win 1).blk t).view.read (Elt Ideal) A1 (ix3 j p q)) = (fun j => A1 (ix3 j (rowOf t p) q)) from funext fun j => blk1_read A1 t j p q]

/-- The colour block of point `t` is block `t` of the colour of the coefficients' and the directions' arrays. -/
theorem block6 (A0 : S3x15744x128.Idx → EReal) (A1 : S4x15744x128.Idx → EReal) (A2 : S3x15744x128.Idx → EReal)
    (A3 : S45x15744x128.Idx → EReal) (A4 : S3x15744x128.Idx → EReal) (t : Fin cfg0.N) :
    (cfg0.win 6).cut (grid0.coords t) (out0_6 (((cfg0.win 0).blk t).view.read (Elt Ideal) A0) (((cfg0.win 1).blk t).view.read (Elt Ideal) A1)
        (((cfg0.win 2).blk t).view.read (Elt Ideal) A2) (((cfg0.win 3).blk t).view.read (Elt Ideal) A3) (((cfg0.win 4).blk t).view.read (Elt Ideal) A4))
      = ((cfg0.win 6).blk t).view.read (Elt Ideal) (G6 A2 A3 A4) := by
  funext y
  obtain ⟨k, p, q, rfl⟩ : ∃ (k : Fin 3) (p q : Fin 128), y = ix3 k p q := ⟨y 0, y 1, y 2, eq_ix3 y⟩
  show out0_6 (((cfg0.win 0).blk t).view.read (Elt Ideal) A0) (((cfg0.win 1).blk t).view.read (Elt Ideal) A1)
        (((cfg0.win 2).blk t).view.read (Elt Ideal) A2) (((cfg0.win 3).blk t).view.read (Elt Ideal) A3) (((cfg0.win 4).blk t).view.read (Elt Ideal) A4) (ix3 k p q)
    = G6 A2 A3 A4 (((cfg0.win 6).blk t).view.emb (ix3 k p q))
  rw [emb6 t k p q]
  refine (out6_apply _ _ _ _ _ (ix3 k p q)).trans ?_
  show Cert.Spec.col (((cfg0.win 4).blk t).view.read (Elt Ideal) A4 (ix3 0 p q)) (((cfg0.win 4).blk t).view.read (Elt Ideal) A4 (ix3 1 p q))
      (((cfg0.win 4).blk t).view.read (Elt Ideal) A4 (ix3 2 p q)) (((cfg0.win 2).blk t).view.read (Elt Ideal) A2 (ix3 k p q))
      (fun j => ((cfg0.win 3).blk t).view.read (Elt Ideal) A3 (ix3 (at45 j k) p q))
    = Cert.Spec.col (A4 (ix3 0 (rowOf t p) q)) (A4 (ix3 1 (rowOf t p) q)) (A4 (ix3 2 (rowOf t p) q)) (A2 (ix3 k (rowOf t p) q))
      (fun j => A3 (ix3 (at45 j k) (rowOf t p) q))
  rw [blk4_read A4 t 0 p q, blk4_read A4 t 1 p q, blk4_read A4 t 2 p q, blk2_read A2 t k p q,
    show (fun j => ((cfg0.win 3).blk t).view.read (Elt Ideal) A3 (ix3 (at45 j k) p q)) = (fun j => A3 (ix3 (at45 j k) (rowOf t p) q)) from
      funext fun j => blk3_read A3 t (at45 j k) p q]

/-! ## The two arrays after the region -/

variable (m : (ℓ : Loc nD τ sig) → Buf (Elt Ideal) ℓ)

/-- What point `t` writes back to the covariance array. -/
theorem flushed5_eq (c : Dev nD) (t : Fin cfg0.N) :
    (dats m 0 c).flushed 5 t = ((cfg0.win 5).blk t).view.read (Elt Ideal)
      (G5 (V m c (Pipeline.arrRef spec0 0)) (V m c (Pipeline.arrRef spec0 1))) := by
  show (cfg0.win 5).cut (grid0.coords t) ((dats m 0 c).after 5 t) = _
  rw [after0_5]
  exact block5 (V m c (Pipeline.arrRef spec0 0)) (V m c (Pipeline.arrRef spec0 1)) (V m c (Pipeline.arrRef spec0 2))
    (V m c (Pipeline.arrRef spec0 3)) (V m c (Pipeline.arrRef spec0 4)) t

/-- The covariance array after the region. -/
theorem final5 (c : Dev nD) :
    (dats m 0 c).arrAt 5 cfg0.N = G5 (V m c (Pipeline.arrRef spec0 0)) (V m c (Pipeline.arrRef spec0 1)) :=
  (dats m 0 c).arrAt_eq_of_cover 5 _ (fun t _ => flushed5_eq m c t) cover5

/-- What point `t` writes back to the colour array. -/
theorem flushed6_eq (c : Dev nD) (t : Fin cfg0.N) :
    (dats m 0 c).flushed 6 t = ((cfg0.win 6).blk t).view.read (Elt Ideal)
      (G6 (V m c (Pipeline.arrRef spec0 2)) (V m c (Pipeline.arrRef spec0 3)) (V m c (Pipeline.arrRef spec0 4))) := by
  show (cfg0.win 6).cut (grid0.coords t) ((dats m 0 c).after 6 t) = _
  rw [after0_6]
  exact block6 (V m c (Pipeline.arrRef spec0 0)) (V m c (Pipeline.arrRef spec0 1)) (V m c (Pipeline.arrRef spec0 2))
    (V m c (Pipeline.arrRef spec0 3)) (V m c (Pipeline.arrRef spec0 4)) t

/-- The colour array after the region. -/
theorem final6 (c : Dev nD) :
    (dats m 0 c).arrAt 6 cfg0.N = G6 (V m c (Pipeline.arrRef spec0 2)) (V m c (Pipeline.arrRef spec0 3)) (V m c (Pipeline.arrRef spec0 4)) :=
  (dats m 0 c).arrAt_eq_of_cover 6 _ (fun t _ => flushed6_eq m c t) cover6

end Cert.KernelIdeal.Blocks

end
-- ==== Proof.HostOut.lean ====
/-
  The two results of the program, read at a point.

  After the call the host undoes the tiling: it joins the rows and lanes of each output back into 15744 · 128 points,
  keeps the first N of them, and turns channel-major into point-major — the nine covariance channels split into a
  3 × 3 matrix, row by row.  So the covariance result at (n, a, b) is the covariance array the region left at
  (3 a + b, n / 128, n mod 128), and the colour result at (n, c) is the colour array at (c, n / 128, n mod 128).
-/
import proofs.«139306_j35287451304162_2_alg».proof.Proof.Gen.KernelIdeal.Frame
import proofs.«139306_j35287451304162_2_alg».proof.Proof.Blocks
import proofs.«139306_j35287451304162_2_alg».proof.Proof.HostIn
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostOut

open Cert.KernelIdeal Cert.KernelIdeal.Gen Cert.KernelIdeal.Body Cert.KernelIdeal.Blocks Cert.KernelIdeal.HostIn
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The covariance result at `(n, a, b)` is the region's covariance array at tile `3 a + b` and the position of
    point `n`. -/
theorem v23_apply (c : Dev nD) (n : Fin 2000000) (a b : Fin 3) :
    Pipeline.afterTail₀ cfgs (dats m) 0 (V0 m) [hostOps1] c main_v23 (ix3 n a b)
      = G5 (V m c (Pipeline.arrRef spec0 0)) (V m c (Pipeline.arrRef spec0 1)) (ix3 (Cert.Spec.at9 a b) (rowN n) (laneN n)) := by
  have hW : Pipeline.withArrays (cfgs 0).spec c (V0 m c) (fun w => (dats m 0 c).arrAt w (cfgs 0).N) (Proc.devRef .tc main_v17_0)
      = G5 (V m c (Pipeline.arrRef spec0 0)) (V m c (Pipeline.arrRef spec0 1)) :=
    (Pipeline.withArrays_arr spec0 launch0.win.arr_inj c _ _ 5).trans (final5 m c)
  have hn := n.isLt
  unfold Pipeline.afterTail₀
  show StableHlo.after hostOps1 _ (Proc.devRef .tc main_v23) (ix3 n a b) = _
  after_results
  rw [hW]
  generalize G5 (V m c (Pipeline.arrRef spec0 0)) (V m c (Pipeline.arrRef spec0 1)) = K
  refine (transpose_apply _ _ _ (ix3 n a b) (ix3 a b n)
    (fun d => match d with | ⟨0, _⟩ => rfl | ⟨1, _⟩ => rfl | ⟨2, _⟩ => rfl)).trans ?_
  show shapeCast S3x3x2000000 _ shapeCasts_S9x2000000_S3x3x2000000 (ix3 a b n) = _
  refine (shapeCast_apply _ _ (ix3 a b n) (ix2 (Cert.Spec.at9 a b) n) ?_).trans ?_
  · rw [Shape.rowMajor_val_two, Shape.rowMajor_val_three]
    show (3 * a.val + b.val) * 2000000 + n.val = (a.val * 3 + b.val) * 2000000 + n.val
    omega
  refine (slice2_axis1_eq 0 _ _ (Cert.Spec.at9 a b) n).trans ?_
  show shapeCast S9x2015232 K shapeCasts_S9x15744x128_S9x2015232 (ix2 (Cert.Spec.at9 a b) (⟨0 + n.val, by omega⟩ : Fin 2015232)) = _
  refine shapeCast_apply _ _ _ (ix3 (Cert.Spec.at9 a b) (rowN n) (laneN n)) ?_
  rw [Shape.rowMajor_val_two, Shape.rowMajor_val_three]
  show ((3 * a.val + b.val) * 15744 + n.val / 128) * 128 + n.val % 128 = (3 * a.val + b.val) * 2015232 + (0 + n.val)
  omega

/-- The colour result at `(n, j)` is the region's colour array at channel `j` and the position of point `n`. -/
theorem v24_apply (c : Dev nD) (n : Fin 2000000) (j : Fin 3) :
    Pipeline.afterTail₀ cfgs (dats m) 0 (V0 m) [hostOps1] c main_v24 (ix2 n j)
      = G6 (V m c (Pipeline.arrRef spec0 2)) (V m c (Pipeline.arrRef spec0 3)) (V m c (Pipeline.arrRef spec0 4)) (ix3 j (rowN n) (laneN n)) := by
  have hW : Pipeline.withArrays (cfgs 0).spec c (V0 m c) (fun w => (dats m 0 c).arrAt w (cfgs 0).N) (Proc.devRef .tc main_v17_1)
      = G6 (V m c (Pipeline.arrRef spec0 2)) (V m c (Pipeline.arrRef spec0 3)) (V m c (Pipeline.arrRef spec0 4)) :=
    (Pipeline.withArrays_arr spec0 launch0.win.arr_inj c _ _ 6).trans (final6 m c)
  have hn := n.isLt
  unfold Pipeline.afterTail₀
  show StableHlo.after hostOps1 _ (Proc.devRef .tc main_v24) (ix2 n j) = _
  after_results
  rw [hW]
  generalize G6 (V m c (Pipeline.arrRef spec0 2)) (V m c (Pipeline.arrRef spec0 3)) (V m c (Pipeline.arrRef spec0 4)) = K
  refine (transpose_ix2_apply _ _ n j).trans ?_
  refine (slice2_axis1_eq 0 _ _ j n).trans ?_
  show shapeCast S3x2015232 K shapeCasts_S3x15744x128_S3x2015232 (ix2 j (⟨0 + n.val, by omega⟩ : Fin 2015232)) = _
  refine shapeCast_apply _ _ _ (ix3 j (rowN n) (laneN n)) ?_
  rw [Shape.rowMajor_val_two, Shape.rowMajor_val_three]
  show (j.val * 15744 + n.val / 128) * 128 + n.val % 128 = j.val * 2015232 + (0 + n.val)
  omega

end Cert.KernelIdeal.HostOut

end
-- ==== Proof.KernelResults.lean ====
/-
  The kernel program's run with both results named.

  Put together: the covariance result at (n, a, b) is the region's covariance array at tile 3 a + b and the position
  of point n, which is the covariance entry (a, b) of the logits and the quaternion the region finds there, which are
  the arguments' at point n; likewise the colour.  So the program ends with the covariance result at
  `Gcov` and the colour result at `Gcol` of its arguments, which it leaves unchanged.
-/
import proofs.«139306_j35287451304162_2_alg».proof.Proof.Gen.KernelIdeal.Frame
import proofs.«139306_j35287451304162_2_alg».proof.Proof.Spec
import proofs.«139306_j35287451304162_2_alg».proof.Proof.HostIn
import proofs.«139306_j35287451304162_2_alg».proof.Proof.HostOut
import Idealize.ShloMosaic.Lib.Pipeline.Value
import Idealize.ShloMosaic.Lib.ValueIdx

noncomputable section

namespace Cert.KernelIdeal.Results

open Cert.KernelIdeal Cert.KernelIdeal.Gen Cert.KernelIdeal.Body Cert.KernelIdeal.Blocks Cert.KernelIdeal.HostIn Cert.KernelIdeal.HostOut
open Idealize.ShloMosaic Idealize.ShloMosaic.TcCoe Idealize.SL.Sem Idealize.ShloMosaic.ValueIdx

variable (m : (ℓ : Loc nD τ sig) → Buf (Elt Ideal) ℓ) (ρ : Dev nD → PrngReg)

/-- The covariance result is the covariance of the logits and the quaternions, point by point. -/
theorem v23_eq (c : Dev nD) :
    Pipeline.afterTail₀ cfgs (dats m) 0 (V0 m) [hostOps1] c main_v23
      = Cert.Spec.Gcov (N := 2000000) (m ((c.tc : Thread nD τ).loc main_arg0)) (m ((c.tc : Thread nD τ).loc main_arg1)) := by
  funext i
  obtain ⟨n, a, b, rfl⟩ : ∃ (n : Fin 2000000) (a b : Fin 3), i = ix3 n a b := ⟨i 0, i 1, i 2, eq_ix3 i⟩
  refine (v23_apply m c n a b).trans ?_
  show Cert.Spec.cov (fun j => V m c main_v8 (ix3 j (rowN n) (laneN n))) (fun k => V m c main_v10 (ix3 k (rowN n) (laneN n)))
      (row9 (Cert.Spec.at9 a b)) (col9 (Cert.Spec.at9 a b))
    = Cert.Spec.cov (fun j => m ((c.tc : Thread nD τ).loc main_arg0) (ix2 n j)) (fun k => m ((c.tc : Thread nD τ).loc main_arg1) (ix2 n k)) a b
  rw [row9_at9, col9_at9,
    show (fun j => V m c main_v8 (ix3 j (rowN n) (laneN n))) = (fun j => m ((c.tc : Thread nD τ).loc main_arg0) (ix2 n j)) from funext fun j => V8_apply m c n j,
    show (fun k => V m c main_v10 (ix3 k (rowN n) (laneN n))) = (fun k => m ((c.tc : Thread nD τ).loc main_arg1) (ix2 n k)) from funext fun k => V10_apply m c n k]

/-- The colour result is the colour of the coefficients and the directions, point by point. -/
theorem v24_eq (c : Dev nD) :
    Pipeline.afterTail₀ cfgs (dats m) 0 (V0 m) [hostOps1] c main_v24
      = Cert.Spec.Gcol (N := 2000000) (m ((c.tc : Thread nD τ).loc main_arg2)) (m ((c.tc : Thread nD τ).loc main_arg3)) (m ((c.tc : Thread nD τ).loc main_arg4)) := by
  funext i
  obtain ⟨n, j, rfl⟩ : ∃ (n : Fin 2000000) (j : Fin 3), i = ix2 n j := ⟨i 0, i 1, eq_ix2 i⟩
  refine (v24_apply m c n j).trans ?_
  show Cert.Spec.col (V m c main_v16 (ix3 0 (rowN n) (laneN n))) (V m c main_v16 (ix3 1 (rowN n) (laneN n))) (V m c main_v16 (ix3 2 (rowN n) (laneN n)))
      (V m c main_v12 (ix3 j (rowN n) (laneN n))) (fun k => V m c main_v14 (ix3 (at45 k j) (rowN n) (laneN n)))
    = Cert.Spec.col (m ((c.tc : Thread nD τ).loc main_arg4) (ix2 n 0)) (m ((c.tc : Thread nD τ).loc main_arg4) (ix2 n 1)) (m ((c.tc : Thread nD τ).loc main_arg4) (ix2 n 2)) (m ((c.tc : Thread nD τ).loc main_arg2) (ix3 n 0 j))
      (fun k => m ((c.tc : Thread nD τ).loc main_arg3) (ix3 n k j))
  rw [V16_apply m c n 0, V16_apply m c n 1, V16_apply m c n 2, V12_apply m c n j,
    show (fun k => V m c main_v14 (ix3 (at45 k j) (rowN n) (laneN n))) = (fun k => m ((c.tc : Thread nD τ).loc main_arg3) (ix3 n k j)) from funext fun k => V14_apply m c n k j]

/-- Every weakly fair execution of the program terminates with the two results at the covariance and the colour of
    the arguments, and the arguments unchanged. -/
theorem run : θ_run defs (onTc (τ := τ) (main (F := Ideal))) ⟨m, fun _ => 0, ρ⟩ fun r => ∀ c : Dev nD,
      r.2.mem ((c.tc : Thread nD τ).loc main_v23) = Cert.Spec.Gcov (N := 2000000) (m ((c.tc : Thread nD τ).loc main_arg0)) (m ((c.tc : Thread nD τ).loc main_arg1))
      ∧ r.2.mem ((c.tc : Thread nD τ).loc main_v24) = Cert.Spec.Gcol (N := 2000000) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v23 (Pipeline.mem_restRefs_of main_v23 (by decide) (by decide))).trans (v23_eq m c),
      ((h c).2 main_v24 (Pipeline.mem_restRefs_of main_v24 (by decide) (by decide))).trans (v24_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Results

end
-- ==== Proof.RefStage.lean ====
/-
  The reference's two results as the stages the read-at-an-index module names.

  The reference's run states each result as the composed term of its operations; the term is, by unfolding the
  stages' definitions, the last stage applied to the arguments.
-/
import proofs.«139306_j35287451304162_2_alg».proof.Proof.RefRunPatched
import proofs.«139306_j35287451304162_2_alg».proof.Proof.RefReadPatched

noncomputable section

namespace Cert.ReferenceIdeal.RefStage

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The covariance result's term is its last stage. -/
theorem val_main_v66_eq (m : (ℓ : Loc nD τ sig) → Buf (Elt F) ℓ) (c : Dev nD) :
    Cert.ReferenceIdeal.ValueP.res_main_v66 m c = val_main_v66 (F := F) (m ((c.tc : Thread nD τ).loc main_arg0)) (m ((c.tc : Thread nD τ).loc main_arg1)) := by
  unfold Cert.ReferenceIdeal.ValueP.res_main_v66; rfl

/-- The colour result's term is its last stage. -/
theorem val_main_v225_eq (m : (ℓ : Loc nD τ sig) → Buf (Elt F) ℓ) (c : Dev nD) :
    Cert.ReferenceIdeal.ValueP.res_main_v225 m c = val_main_v225 (F := F) (m ((c.tc : Thread nD τ).loc main_arg2)) (m ((c.tc : Thread nD τ).loc main_arg3)) (m ((c.tc : Thread nD τ).loc main_arg4)) := by
  unfold Cert.ReferenceIdeal.ValueP.res_main_v225; rfl

end Cert.ReferenceIdeal.RefStage

end
-- ==== Proof.RefCov.lean ====
/-
  The reference's covariance array, entry by entry, is the covariance of the specification.

  The reference divides each quaternion component by the clamped length (the squares summed over the four
  components from zero), takes the four components apart, forms the nine rotation entries from their ten products,
  lays the nine columns side by side as an [N, 9] array read as [N, 3, 3], multiplies entry (a, j) by the scale of
  column j, and contracts the result with itself over the column axis.  Each step is read at one point n: the
  quotient is the specification's quotient form of the normalised component, which is the product form; column
  3a + j of the nine is rotation entry (a, j); and the contraction is the sum over the three columns, which is the
  covariance entry.
-/
import proofs.«139306_j35287451304162_2_alg».proof.Proof.RefReadPatched
import proofs.«139306_j35287451304162_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open scoped BigOperators

variable (x0 : (⟨S2000000x3, .f32⟩ : BufTy).Contents (Elt Ideal)) (x1 : (⟨S2000000x4, .f32⟩ : BufTy).Contents (Elt Ideal))
  (n : Fin 2000000)

/-- The raw quaternion of point n. -/
abbrev quat : Fin 4 → EReal := fun k => x1 (ix2 n k)

/-- The scale logits of point n. -/
abbrev logit : Fin 3 → EReal := fun j => x0 (ix2 n j)

/-! ## The normalised quaternion -/

/-- The row sum of the squared components of point n, from the zero word. -/
theorem sumsq_at : val_main_call0_v1 (F := Ideal) x1 (ix1 n)
    = Spec.w32 0x00000000#32 + ∑ k : Fin 4, quat x1 n k * quat x1 n k := by
  rw [val_main_call0_v1_apply]
  refine congrArg (_ + ·) (Finset.sum_congr rfl fun k _ => ?_)
  have e : idx_main_call0_v1 (ix1 n) k = ix2 n k :=
    funext fun a => Fin.ext (by match a with | ⟨0, _⟩ => rfl | ⟨1, _⟩ => rfl)
  show x1 (idx_main_call0_v1 (ix1 n) k) * x1 (idx_main_call0_v1 (ix1 n) k) = _
  rw [e]

/-- The clamped length, broadcast along the row of point n. -/
theorem len_at (k : Fin 4) : val_main_v5 (F := Ideal) x1 (ix2 n k) = Spec.lenSum (quat x1 n) := by
  have e : idx_main_call0_v2 (idx_main_v5 (ix2 n k)) = ix1 n :=
    funext fun a => Fin.ext (by match a with | ⟨0, _⟩ => rfl)
  rw [val_main_v5_apply, val_main_v4_apply, val_main_call1_v1_apply, val_main_call1_v0_apply, val_main_cst_0_apply,
    val_main_v3_apply, val_main_call0_v2_apply, e, sumsq_at]
  rfl

/-- Component k of the quotient is the normalised component. -/
theorem quot_at (k : Fin 4) : val_main_v6 (F := Ideal) x1 (ix2 n k) = Spec.unit (quat x1 n) k := by
  rw [val_main_v6_apply, len_at, ← Spec.unitDiv_eq]
  rfl

/-! ## Its four components -/

/-- The first component (w), sliced out of the quotient and flattened. -/
theorem comp0_at : val_main_v8 (F := Ideal) x1 (ix1 n) = Spec.unit (quat x1 n) 0 := by
  have e : idx_main_v7 (idx_main_v8 (ix1 n)) = ix2 n (0 : Fin 4) := funext fun a => Fin.ext (by
    match a with
    | ⟨0, _⟩ => show n.val / 1 = n.val; omega
    | ⟨1, _⟩ => rfl)
  rw [val_main_v8_apply, val_main_v7_apply, e, quot_at]

/-- The second component (x). -/
theorem comp1_at : val_main_v10 (F := Ideal) x1 (ix1 n) = Spec.unit (quat x1 n) 1 := by
  have e : idx_main_v9 (idx_main_v10 (ix1 n)) = ix2 n (1 : Fin 4) := funext fun a => Fin.ext (by
    match a with
    | ⟨0, _⟩ => show n.val / 1 = n.val; omega
    | ⟨1, _⟩ => rfl)
  rw [val_main_v10_apply, val_main_v9_apply, e, quot_at]

/-- The third component (y). -/
theorem comp2_at : val_main_v12 (F := Ideal) x1 (ix1 n) = Spec.unit (quat x1 n) 2 := by
  have e : idx_main_v11 (idx_main_v12 (ix1 n)) = ix2 n (2 : Fin 4) := funext fun a => Fin.ext (by
    match a with
    | ⟨0, _⟩ => show n.val / 1 = n.val; omega
    | ⟨1, _⟩ => rfl)
  rw [val_main_v12_apply, val_main_v11_apply, e, quot_at]

/-- The fourth component (z). -/
theorem comp3_at : val_main_v14 (F := Ideal) x1 (ix1 n) = Spec.unit (quat x1 n) 3 := by
  have e : idx_main_v13 (idx_main_v14 (ix1 n)) = ix2 n (3 : Fin 4) := funext fun a => Fin.ext (by
    match a with
    | ⟨0, _⟩ => show n.val / 1 = n.val; omega
    | ⟨1, _⟩ => rfl)
  rw [val_main_v14_apply, val_main_v13_apply, e, quot_at]

/-! ## The nine rotation entries -/

/-- The rotation matrix of the normalised quaternion of point n, row by row. -/
abbrev rot : Fin 9 → EReal :=
  Spec.rotf (Spec.unit (quat x1 n) 0) (Spec.unit (quat x1 n) 1) (Spec.unit (quat x1 n) 2) (Spec.unit (quat x1 n) 3)

/-! Every entry is a polynomial in the four components and the word for two: read each operation at point n, put
    the components in, and compare with the specification's entry. -/

theorem rot0_at : val_main_v27 (F := Ideal) x1 (ix1 n) = rot x1 n 0 := by
  rw [val_main_v27_apply, val_main_v26_apply, val_main_v25_apply, val_main_v15_apply, val_main_v16_apply,
    val_main_v17_apply, val_main_v18_apply, comp0_at, comp1_at, comp2_at, comp3_at]
  rfl

theorem rot1_at : val_main_v30 (F := Ideal) x1 (ix1 n) = rot x1 n 1 := by
  rw [val_main_v30_apply, val_main_v29_apply, val_main_cst_1_apply, val_main_v28_apply, val_main_v22_apply,
    val_main_v21_apply, comp0_at, comp1_at, comp2_at, comp3_at]
  rfl

theorem rot2_at : val_main_v33 (F := Ideal) x1 (ix1 n) = rot x1 n 2 := by
  rw [val_main_v33_apply, val_main_v32_apply, val_main_cst_2_apply, val_main_v31_apply, val_main_v23_apply,
    val_main_v20_apply, comp0_at, comp1_at, comp2_at, comp3_at]
  rfl

theorem rot3_at : val_main_v36 (F := Ideal) x1 (ix1 n) = rot x1 n 3 := by
  rw [val_main_v36_apply, val_main_v35_apply, val_main_cst_3_apply, val_main_v34_apply, val_main_v22_apply,
    val_main_v21_apply, comp0_at, comp1_at, comp2_at, comp3_at]
  rfl

theorem rot4_at : val_main_v39 (F := Ideal) x1 (ix1 n) = rot x1 n 4 := by
  rw [val_main_v39_apply, val_main_v38_apply, val_main_v37_apply, val_main_v15_apply, val_main_v16_apply,
    val_main_v17_apply, val_main_v18_apply, comp0_at, comp1_at, comp2_at, comp3_at]
  rfl

theorem rot5_at : val_main_v42 (F := Ideal) x1 (ix1 n) = rot x1 n 5 := by
  rw [val_main_v42_apply, val_main_v41_apply, val_main_cst_4_apply, val_main_v40_apply, val_main_v24_apply,
    val_main_v19_apply, comp0_at, comp1_at, comp2_at, comp3_at]
  rfl

theorem rot6_at : val_main_v45 (F := Ideal) x1 (ix1 n) = rot x1 n 6 := by
  rw [val_main_v45_apply, val_main_v44_apply, val_main_cst_5_apply, val_main_v43_apply, val_main_v23_apply,
    val_main_v20_apply, comp0_at, comp1_at, comp2_at, comp3_at]
  rfl

theorem rot7_at : val_main_v48 (F := Ideal) x1 (ix1 n) = rot x1 n 7 := by
  rw [val_main_v48_apply, val_main_v47_apply, val_main_cst_6_apply, val_main_v46_apply, val_main_v24_apply,
    val_main_v19_apply, comp0_at, comp1_at, comp2_at, comp3_at]
  rfl

theorem rot8_at : val_main_v51 (F := Ideal) x1 (ix1 n) = rot x1 n 8 := by
  rw [val_main_v51_apply, val_main_v50_apply, val_main_v49_apply, val_main_v15_apply, val_main_v16_apply,
    val_main_v17_apply, val_main_v18_apply, comp0_at, comp1_at, comp2_at, comp3_at]
  rfl

/-! ## The nine columns side by side, read as a 3 × 3 matrix -/

/-- Nine [N, 1] columns as the list of pieces a concatenation takes. -/
abbrev cols9 {α : Type} (g0 g1 g2 g3 g4 g5 g6 g7 g8 : S2000000x1.Idx → α) : List ((s : Shape) × (s.Idx → α)) :=
  [⟨S2000000x1, g0⟩, ⟨S2000000x1, g1⟩, ⟨S2000000x1, g2⟩, ⟨S2000000x1, g3⟩, ⟨S2000000x1, g4⟩, ⟨S2000000x1, g5⟩,
    ⟨S2000000x1, g6⟩, ⟨S2000000x1, g7⟩, ⟨S2000000x1, g8⟩]

/-- Nine [N, 1] columns laid side by side: column k of row n is the k-th piece at row n (off the joined axis the
    piece is read at the same row; on it, the k-th piece starts at column k, each piece before it being one column
    wide). -/
theorem cat9_at {α : Type} (g0 g1 g2 g3 g4 g5 g6 g7 g8 : S2000000x1.Idx → α)
    (h : Shape.Concatenates [S2000000x1, S2000000x1, S2000000x1, S2000000x1, S2000000x1, S2000000x1, S2000000x1,
      S2000000x1, S2000000x1] S2000000x9 1) (n : Fin 2000000) (k : Nat) (hk : k < 9) (g : S2000000x1.Idx → α)
    (hg : (cols9 g0 g1 g2 g3 g4 g5 g6 g7 g8)[k]'hk = ⟨S2000000x1, g⟩) :
    concatenate S2000000x9 1 (cols9 g0 g1 g2 g3 g4 g5 g6 g7 g8) h (ix2 n (⟨k, hk⟩ : Fin 9)) = g (ix2 n (0 : Fin 1)) := by
  have off : ∀ b : Fin S2000000x1.rank, b.cast (rfl : S2000000x1.rank = S2000000x9.rank) ≠ (1 : Fin S2000000x9.rank) →
      ((ix2 n (0 : Fin 1) : S2000000x1.Idx) b).val
        = ((ix2 n (⟨k, hk⟩ : Fin 9) : S2000000x9.Idx) (b.cast rfl)).val := fun b hb => by
    match b with
    | ⟨0, _⟩ => rfl
    | ⟨1, _⟩ => exact absurd rfl hb
  match k, hk, hg, off with
  | 0, hk, hg, off =>
    exact concatenate_apply_piece (t := S2000000x9) 1 (cols9 g0 g1 g2 g3 g4 g5 g6 g7 g8) h _ 0 hk S2000000x1 g hg rfl 0 rfl _ off rfl
  | 1, hk, hg, off =>
    exact concatenate_apply_piece (t := S2000000x9) 1 (cols9 g0 g1 g2 g3 g4 g5 g6 g7 g8) h _ 1 hk S2000000x1 g hg rfl 1 rfl _ off rfl
  | 2, hk, hg, off =>
    exact concatenate_apply_piece (t := S2000000x9) 1 (cols9 g0 g1 g2 g3 g4 g5 g6 g7 g8) h _ 2 hk S2000000x1 g hg rfl 2 rfl _ off rfl
  | 3, hk, hg, off =>
    exact concatenate_apply_piece (t := S2000000x9) 1 (cols9 g0 g1 g2 g3 g4 g5 g6 g7 g8) h _ 3 hk S2000000x1 g hg rfl 3 rfl _ off rfl
  | 4, hk, hg, off =>
    exact concatenate_apply_piece (t := S2000000x9) 1 (cols9 g0 g1 g2 g3 g4 g5 g6 g7 g8) h _ 4 hk S2000000x1 g hg rfl 4 rfl _ off rfl
  | 5, hk, hg, off =>
    exact concatenate_apply_piece (t := S2000000x9) 1 (cols9 g0 g1 g2 g3 g4 g5 g6 g7 g8) h _ 5 hk S2000000x1 g hg rfl 5 rfl _ off rfl
  | 6, hk, hg, off =>
    exact concatenate_apply_piece (t := S2000000x9) 1 (cols9 g0 g1 g2 g3 g4 g5 g6 g7 g8) h _ 6 hk S2000000x1 g hg rfl 6 rfl _ off rfl
  | 7, hk, hg, off =>
    exact concatenate_apply_piece (t := S2000000x9) 1 (cols9 g0 g1 g2 g3 g4 g5 g6 g7 g8) h _ 7 hk S2000000x1 g hg rfl 7 rfl _ off rfl
  | 8, hk, hg, off =>
    exact concatenate_apply_piece (t := S2000000x9) 1 (cols9 g0 g1 g2 g3 g4 g5 g6 g7 g8) h _ 8 hk S2000000x1 g hg rfl 8 rfl _ off rfl
  | k + 9, hk, _, _ => exact absurd hk (by omega)

/-- A flat index whose coordinate is n is the index of point n. -/
theorem flatidx (j : S2000000.Idx) (hj : (j 0).val = n.val) : j = ix1 n :=
  funext fun a => Fin.ext (by match a with | ⟨0, _⟩ => exact hj)

/-- Column c of the [N, 9] array at row n is rotation entry c: the c-th piece is entry c kept as a column. -/
theorem rotcol_at (c : Fin 9) : val_main_v61 (F := Ideal) x1 (ix2 n c) = rot x1 n c := by
  unfold val_main_v61
  match c with
  | ⟨0, hc⟩ =>
    exact (cat9_at (val_main_v52 (F := Ideal) x1) (val_main_v53 (F := Ideal) x1) (val_main_v54 (F := Ideal) x1)
      (val_main_v55 (F := Ideal) x1) (val_main_v56 (F := Ideal) x1) (val_main_v57 (F := Ideal) x1)
      (val_main_v58 (F := Ideal) x1) (val_main_v59 (F := Ideal) x1) (val_main_v60 (F := Ideal) x1) _ n 0 hc
      (val_main_v52 (F := Ideal) x1) rfl).trans ((val_main_v52_apply x1 _).trans
        ((congrArg (val_main_v27 (F := Ideal) x1) (flatidx n _ rfl)).trans (rot0_at x1 n)))
  | ⟨1, hc⟩ =>
    exact (cat9_at (val_main_v52 (F := Ideal) x1) (val_main_v53 (F := Ideal) x1) (val_main_v54 (F := Ideal) x1)
      (val_main_v55 (F := Ideal) x1) (val_main_v56 (F := Ideal) x1) (val_main_v57 (F := Ideal) x1)
      (val_main_v58 (F := Ideal) x1) (val_main_v59 (F := Ideal) x1) (val_main_v60 (F := Ideal) x1) _ n 1 hc
      (val_main_v53 (F := Ideal) x1) rfl).trans ((val_main_v53_apply x1 _).trans
        ((congrArg (val_main_v30 (F := Ideal) x1) (flatidx n _ rfl)).trans (rot1_at x1 n)))
  | ⟨2, hc⟩ =>
    exact (cat9_at (val_main_v52 (F := Ideal) x1) (val_main_v53 (F := Ideal) x1) (val_main_v54 (F := Ideal) x1)
      (val_main_v55 (F := Ideal) x1) (val_main_v56 (F := Ideal) x1) (val_main_v57 (F := Ideal) x1)
      (val_main_v58 (F := Ideal) x1) (val_main_v59 (F := Ideal) x1) (val_main_v60 (F := Ideal) x1) _ n 2 hc
      (val_main_v54 (F := Ideal) x1) rfl).trans ((val_main_v54_apply x1 _).trans
        ((congrArg (val_main_v33 (F := Ideal) x1) (flatidx n _ rfl)).trans (rot2_at x1 n)))
  | ⟨3, hc⟩ =>
    exact (cat9_at (val_main_v52 (F := Ideal) x1) (val_main_v53 (F := Ideal) x1) (val_main_v54 (F := Ideal) x1)
      (val_main_v55 (F := Ideal) x1) (val_main_v56 (F := Ideal) x1) (val_main_v57 (F := Ideal) x1)
      (val_main_v58 (F := Ideal) x1) (val_main_v59 (F := Ideal) x1) (val_main_v60 (F := Ideal) x1) _ n 3 hc
      (val_main_v55 (F := Ideal) x1) rfl).trans ((val_main_v55_apply x1 _).trans
        ((congrArg (val_main_v36 (F := Ideal) x1) (flatidx n _ rfl)).trans (rot3_at x1 n)))
  | ⟨4, hc⟩ =>
    exact (cat9_at (val_main_v52 (F := Ideal) x1) (val_main_v53 (F := Ideal) x1) (val_main_v54 (F := Ideal) x1)
      (val_main_v55 (F := Ideal) x1) (val_main_v56 (F := Ideal) x1) (val_main_v57 (F := Ideal) x1)
      (val_main_v58 (F := Ideal) x1) (val_main_v59 (F := Ideal) x1) (val_main_v60 (F := Ideal) x1) _ n 4 hc
      (val_main_v56 (F := Ideal) x1) rfl).trans ((val_main_v56_apply x1 _).trans
        ((congrArg (val_main_v39 (F := Ideal) x1) (flatidx n _ rfl)).trans (rot4_at x1 n)))
  | ⟨5, hc⟩ =>
    exact (cat9_at (val_main_v52 (F := Ideal) x1) (val_main_v53 (F := Ideal) x1) (val_main_v54 (F := Ideal) x1)
      (val_main_v55 (F := Ideal) x1) (val_main_v56 (F := Ideal) x1) (val_main_v57 (F := Ideal) x1)
      (val_main_v58 (F := Ideal) x1) (val_main_v59 (F := Ideal) x1) (val_main_v60 (F := Ideal) x1) _ n 5 hc
      (val_main_v57 (F := Ideal) x1) rfl).trans ((val_main_v57_apply x1 _).trans
        ((congrArg (val_main_v42 (F := Ideal) x1) (flatidx n _ rfl)).trans (rot5_at x1 n)))
  | ⟨6, hc⟩ =>
    exact (cat9_at (val_main_v52 (F := Ideal) x1) (val_main_v53 (F := Ideal) x1) (val_main_v54 (F := Ideal) x1)
      (val_main_v55 (F := Ideal) x1) (val_main_v56 (F := Ideal) x1) (val_main_v57 (F := Ideal) x1)
      (val_main_v58 (F := Ideal) x1) (val_main_v59 (F := Ideal) x1) (val_main_v60 (F := Ideal) x1) _ n 6 hc
      (val_main_v58 (F := Ideal) x1) rfl).trans ((val_main_v58_apply x1 _).trans
        ((congrArg (val_main_v45 (F := Ideal) x1) (flatidx n _ rfl)).trans (rot6_at x1 n)))
  | ⟨7, hc⟩ =>
    exact (cat9_at (val_main_v52 (F := Ideal) x1) (val_main_v53 (F := Ideal) x1) (val_main_v54 (F := Ideal) x1)
      (val_main_v55 (F := Ideal) x1) (val_main_v56 (F := Ideal) x1) (val_main_v57 (F := Ideal) x1)
      (val_main_v58 (F := Ideal) x1) (val_main_v59 (F := Ideal) x1) (val_main_v60 (F := Ideal) x1) _ n 7 hc
      (val_main_v59 (F := Ideal) x1) rfl).trans ((val_main_v59_apply x1 _).trans
        ((congrArg (val_main_v48 (F := Ideal) x1) (flatidx n _ rfl)).trans (rot7_at x1 n)))
  | ⟨8, hc⟩ =>
    exact (cat9_at (val_main_v52 (F := Ideal) x1) (val_main_v53 (F := Ideal) x1) (val_main_v54 (F := Ideal) x1)
      (val_main_v55 (F := Ideal) x1) (val_main_v56 (F := Ideal) x1) (val_main_v57 (F := Ideal) x1)
      (val_main_v58 (F := Ideal) x1) (val_main_v59 (F := Ideal) x1) (val_main_v60 (F := Ideal) x1) _ n 8 hc
      (val_main_v60 (F := Ideal) x1) rfl).trans ((val_main_v60_apply x1 _).trans
        ((congrArg (val_main_v51 (F := Ideal) x1) (flatidx n _ rfl)).trans (rot8_at x1 n)))

/-- Entry (a, j) of the [N, 3, 3] reading is column 3a + j of the [N, 9] array. -/
theorem rot_at (a j : Fin 3) : val_main_v62 (F := Ideal) x1 (ix3 n a j) = rot x1 n (Spec.at9 a j) := by
  have e : idx_main_v62 (ix3 n a j) = ix2 n (Spec.at9 a j) := funext fun b => Fin.ext (by
    have hn := n.isLt; have ha := a.isLt; have hj := j.isLt
    match b with
    | ⟨0, _⟩ => show ((n.val * 3 + a.val) * 3 + j.val) / 9 = n.val; omega
    | ⟨1, _⟩ => show ((n.val * 3 + a.val) * 3 + j.val) % 9 = 3 * a.val + j.val; omega)
  rw [val_main_v62_apply, e, rotcol_at]

/-! ## The scales, the scaled rotation and its contraction with itself -/

/-- The scale of column j, broadcast over the rows of the matrix. -/
theorem scale_at (a j : Fin 3) : val_main_v64 (F := Ideal) x0 (ix3 n a j) = Spec.scale (logit x0 n j) := by
  have e : idx_main_v63 (idx_main_v64 (ix3 n a j)) = ix2 n j :=
    funext fun b => Fin.ext (by match b with | ⟨0, _⟩ => rfl | ⟨1, _⟩ => rfl)
  rw [val_main_v64_apply, val_main_v63_apply, e, val_main_v2_apply, val_main_v0_apply, val_main_v1_apply,
    val_main_cst_apply]
  rfl

/-- Entry (a, j) of R · diag s. -/
theorem scaled_at (a j : Fin 3) : val_main_v65 (F := Ideal) x0 x1 (ix3 n a j)
    = Spec.scaled (fun j => Spec.scale (logit x0 n j)) (rot x1 n) a j := by
  rw [val_main_v65_apply, rot_at, scale_at]
  rfl

/-- Entry (a, b) of the contraction over the columns is the covariance entry. -/
theorem cov_at (a b : Fin 3) : val_main_v66 (F := Ideal) x0 x1 (ix3 n a b) = Spec.cov (logit x0 n) (quat x1 n) a b := by
  have el : ∀ k : Fin 3, lidx_main_v66 (ix3 n a b) k = ix3 n a k := fun k =>
    funext fun d => Fin.ext (by match d with | ⟨0, _⟩ => rfl | ⟨1, _⟩ => rfl | ⟨2, _⟩ => rfl)
  have er : ∀ k : Fin 3, ridx_main_v66 (ix3 n a b) k = ix3 n b k := fun k =>
    funext fun d => Fin.ext (by match d with | ⟨0, _⟩ => rfl | ⟨1, _⟩ => rfl | ⟨2, _⟩ => rfl)
  rw [val_main_v66_apply]
  refine (Finset.sum_congr rfl fun k _ => ?_).trans (Spec.sum_scaled (fun j => Spec.scale (logit x0 n j)) (rot x1 n) a b)
  rw [el k, er k, scaled_at, scaled_at]

/-- **The reference's covariance array is the specification's.** -/
theorem cov_eq (x0 : (⟨S2000000x3, .f32⟩ : BufTy).Contents (Elt Ideal)) (x1 : (⟨S2000000x4, .f32⟩ : BufTy).Contents (Elt Ideal)) :
    Cert.ReferenceIdeal.ReadP.val_main_v66 (F := Ideal) x0 x1 = Cert.Spec.Gcov x0 x1 := by
  funext i
  obtain ⟨n, a, b, rfl⟩ : ∃ (n : Fin 2000000) (a b : Fin 3), i = ix3 n a b := ⟨i 0, i 1, i 2, eq_ix3 i⟩
  exact cov_at x0 x1 n a b

end Cert.ReferenceIdeal.RefValue

end
-- ==== Proof.RefCol.lean ====
/-
  The reference's colour array, entry by entry, is the colour of the specification.

  The reference stacks the constant coefficient on the fifteen others as an [N, 16, 3] array, turns it to [N, 3, 16],
  and takes coefficient k of channel ch as the k-th slice along the last axis; the direction's components are the
  three columns of the direction array, kept as [N, 1] columns and spread over the three channels only inside each
  product.  Read at point n and channel ch, coefficient 0 is the constant one and coefficient k ≥ 1 is the (k − 1)-th
  of the others; the factor in front of each coefficient is the harmonic polynomial of the direction that the
  specification writes in the same order; and the sum of the sixteen products, plus one half, clamped to [0, 1], is
  the specification's colour.
-/
import proofs.«139306_j35287451304162_2_alg».proof.Proof.RefReadPatched
import proofs.«139306_j35287451304162_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open scoped BigOperators

variable (x2 : (⟨S2000000x1x3, .f32⟩ : BufTy).Contents (Elt Ideal)) (x3 : (⟨S2000000x15x3, .f32⟩ : BufTy).Contents (Elt Ideal))
  (x4 : (⟨S2000000x3, .f32⟩ : BufTy).Contents (Elt Ideal)) (n : Fin 2000000) (ch : Fin 3)

/-! ## The sixteen coefficients of a channel -/

/-- Row 0 of the stacked coefficients is the constant coefficient. -/
theorem stack_zero (i : S2000000x16x3.Idx) (h0 : (i 0).val = n.val) (h1 : (i 1).val = 0) (h2 : (i 2).val = ch.val) :
    val_main_v67 (F := Ideal) x2 x3 i = x2 (ix3 n (0 : Fin 1) ch) := by
  unfold val_main_v67
  exact concatenate_pair_apply_left (t := S2000000x16x3) (s₁ := S2000000x1x3) (s₂ := S2000000x15x3) 1 x2 x3
    concatenates_S2000000x1x3_S2000000x15x3_S2000000x16x3_d1 i rfl (ix3 n (0 : Fin 1) ch) (fun b => by
      match b with
      | ⟨0, _⟩ => exact h0.symm
      | ⟨1, _⟩ => exact h1.symm
      | ⟨2, _⟩ => exact h2.symm)

/-- Row k + 1 of the stacked coefficients is the k-th of the fifteen others. -/
theorem stack_succ (k : Fin 15) (i : S2000000x16x3.Idx) (h0 : (i 0).val = n.val) (h1 : (i 1).val = k.val + 1)
    (h2 : (i 2).val = ch.val) : val_main_v67 (F := Ideal) x2 x3 i = x3 (ix3 n k ch) := by
  unfold val_main_v67
  exact concatenate_pair_apply_right (t := S2000000x16x3) (s₁ := S2000000x1x3) (s₂ := S2000000x15x3) 1 x2 x3
    concatenates_S2000000x1x3_S2000000x15x3_S2000000x16x3_d1 i rfl rfl (ix3 n k ch) (fun b hb => by
      match b with
      | ⟨0, _⟩ => exact h0.symm
      | ⟨1, _⟩ => exact absurd rfl hb
      | ⟨2, _⟩ => exact h2.symm) h1.symm

/-- The flat position of (n, ch) in an [N, 3] array, split again by three, is (n, ch). -/
theorem split3 : (n.val * 3 + ch.val) / 3 = n.val ∧ (n.val * 3 + ch.val) / 1 % 3 = ch.val := by
  have := ch.isLt
  omega

/-! Slice k of the turned stack along its last axis, flattened to [N, 3], read at (n, ch): the stack at (n, k, ch). -/

theorem sh0_at : val_main_v73 (F := Ideal) x2 x3 (ix2 n ch) = x2 (ix3 n (0 : Fin 1) ch) := by
  rw [val_main_v73_apply, val_main_v72_apply, val_main_v68_apply]
  exact stack_zero x2 x3 n ch _ (split3 n ch).1 rfl (split3 n ch).2

theorem sh1_at : val_main_v79 (F := Ideal) x2 x3 (ix2 n ch) = x3 (ix3 n (0 : Fin 15) ch) := by
  rw [val_main_v79_apply, val_main_v78_apply, val_main_v68_apply]
  exact stack_succ x2 x3 n ch 0 _ (split3 n ch).1 rfl (split3 n ch).2

theorem sh2_at : val_main_v86 (F := Ideal) x2 x3 (ix2 n ch) = x3 (ix3 n (1 : Fin 15) ch) := by
  rw [val_main_v86_apply, val_main_v85_apply, val_main_v68_apply]
  exact stack_succ x2 x3 n ch 1 _ (split3 n ch).1 rfl (split3 n ch).2

theorem sh3_at : val_main_v93 (F := Ideal) x2 x3 (ix2 n ch) = x3 (ix3 n (2 : Fin 15) ch) := by
  rw [val_main_v93_apply, val_main_v92_apply, val_main_v68_apply]
  exact stack_succ x2 x3 n ch 2 _ (split3 n ch).1 rfl (split3 n ch).2

theorem sh4_at : val_main_v106 (F := Ideal) x2 x3 (ix2 n ch) = x3 (ix3 n (3 : Fin 15) ch) := by
  rw [val_main_v106_apply, val_main_v105_apply, val_main_v68_apply]
  exact stack_succ x2 x3 n ch 3 _ (split3 n ch).1 rfl (split3 n ch).2

theorem sh5_at : val_main_v113 (F := Ideal) x2 x3 (ix2 n ch) = x3 (ix3 n (4 : Fin 15) ch) := by
  rw [val_main_v113_apply, val_main_v112_apply, val_main_v68_apply]
  exact stack_succ x2 x3 n ch 4 _ (split3 n ch).1 rfl (split3 n ch).2

theorem sh6_at : val_main_v124 (F := Ideal) x2 x3 (ix2 n ch) = x3 (ix3 n (5 : Fin 15) ch) := by
  rw [val_main_v124_apply, val_main_v123_apply, val_main_v68_apply]
  exact stack_succ x2 x3 n ch 5 _ (split3 n ch).1 rfl (split3 n ch).2

theorem sh7_at : val_main_v131 (F := Ideal) x2 x3 (ix2 n ch) = x3 (ix3 n (6 : Fin 15) ch) := by
  rw [val_main_v131_apply, val_main_v130_apply, val_main_v68_apply]
  exact stack_succ x2 x3 n ch 6 _ (split3 n ch).1 rfl (split3 n ch).2

theorem sh8_at : val_main_v139 (F := Ideal) x2 x3 (ix2 n ch) = x3 (ix3 n (7 : Fin 15) ch) := by
  rw [val_main_v139_apply, val_main_v138_apply, val_main_v68_apply]
  exact stack_succ x2 x3 n ch 7 _ (split3 n ch).1 rfl (split3 n ch).2

theorem sh9_at : val_main_v150 (F := Ideal) x2 x3 (ix2 n ch) = x3 (ix3 n (8 : Fin 15) ch) := by
  rw [val_main_v150_apply, val_main_v149_apply, val_main_v68_apply]
  exact stack_succ x2 x3 n ch 8 _ (split3 n ch).1 rfl (split3 n ch).2

theorem sh10_at : val_main_v158 (F := Ideal) x2 x3 (ix2 n ch) = x3 (ix3 n (9 : Fin 15) ch) := by
  rw [val_main_v158_apply, val_main_v157_apply, val_main_v68_apply]
  exact stack_succ x2 x3 n ch 9 _ (split3 n ch).1 rfl (split3 n ch).2

theorem sh11_at : val_main_v170 (F := Ideal) x2 x3 (ix2 n ch) = x3 (ix3 n (10 : Fin 15) ch) := by
  rw [val_main_v170_apply, val_main_v169_apply, val_main_v68_apply]
  exact stack_succ x2 x3 n ch 10 _ (split3 n ch).1 rfl (split3 n ch).2

theorem sh12_at : val_main_v186 (F := Ideal) x2 x3 (ix2 n ch) = x3 (ix3 n (11 : Fin 15) ch) := by
  rw [val_main_v186_apply, val_main_v185_apply, val_main_v68_apply]
  exact stack_succ x2 x3 n ch 11 _ (split3 n ch).1 rfl (split3 n ch).2

theorem sh13_at : val_main_v198 (F := Ideal) x2 x3 (ix2 n ch) = x3 (ix3 n (12 : Fin 15) ch) := by
  rw [val_main_v198_apply, val_main_v197_apply, val_main_v68_apply]
  exact stack_succ x2 x3 n ch 12 _ (split3 n ch).1 rfl (split3 n ch).2

theorem sh14_at : val_main_v207 (F := Ideal) x2 x3 (ix2 n ch) = x3 (ix3 n (13 : Fin 15) ch) := by
  rw [val_main_v207_apply, val_main_v206_apply, val_main_v68_apply]
  exact stack_succ x2 x3 n ch 13 _ (split3 n ch).1 rfl (split3 n ch).2

theorem sh15_at : val_main_v219 (F := Ideal) x2 x3 (ix2 n ch) = x3 (ix3 n (14 : Fin 15) ch) := by
  rw [val_main_v219_apply, val_main_v218_apply, val_main_v68_apply]
  exact stack_succ x2 x3 n ch 14 _ (split3 n ch).1 rfl (split3 n ch).2

/-! ## The direction and the factor in front of each coefficient -/

/-- The three components of the viewing direction of point n. -/
abbrev dX : EReal := x4 (ix2 n (0 : Fin 3))
abbrev dY : EReal := x4 (ix2 n (1 : Fin 3))
abbrev dZ : EReal := x4 (ix2 n (2 : Fin 3))

/-- An index of an [N, 1] column whose row is n is (n, 0). -/
theorem colidx (i : S2000000x1.Idx) (h0 : (i 0).val = n.val) : i = ix2 n (0 : Fin 1) :=
  funext fun a => Fin.ext (by
    match a with
    | ⟨0, _⟩ => exact h0
    | ⟨1, _⟩ => have h : (i 1).val < 1 := (i 1).isLt; show (i 1).val = 0; omega)

/-- A direction index whose row is n and whose column is c is (n, c). -/
theorem diridx (c : Fin 3) (i : S2000000x3.Idx) (h0 : (i 0).val = n.val) (h1 : (i 1).val = c.val) : i = ix2 n c :=
  funext fun a => Fin.ext (by
    match a with
    | ⟨0, _⟩ => exact h0
    | ⟨1, _⟩ => exact h1)

/-- The three column slices of the direction array, at row n. -/
theorem dir_x : val_main_v69 (F := Ideal) x4 (ix2 n (0 : Fin 1)) = dX x4 n :=
  (val_main_v69_apply x4 _).trans (congrArg x4 (diridx n 0 _ rfl rfl))
theorem dir_y : val_main_v70 (F := Ideal) x4 (ix2 n (0 : Fin 1)) = dY x4 n :=
  (val_main_v70_apply x4 _).trans (congrArg x4 (diridx n 1 _ rfl rfl))
theorem dir_z : val_main_v71 (F := Ideal) x4 (ix2 n (0 : Fin 1)) = dZ x4 n :=
  (val_main_v71_apply x4 _).trans (congrArg x4 (diridx n 2 _ rfl rfl))

/-- The six products of two components, as [N, 1] columns at row n. -/
theorem xx_at : val_main_v97 (F := Ideal) x4 (ix2 n (0 : Fin 1)) = dX x4 n * dX x4 n := by
  rw [val_main_v97_apply, dir_x]
  first | done | rfl
theorem yy_at : val_main_v98 (F := Ideal) x4 (ix2 n (0 : Fin 1)) = dY x4 n * dY x4 n := by
  rw [val_main_v98_apply, dir_y]
  first | done | rfl
theorem zz_at : val_main_v99 (F := Ideal) x4 (ix2 n (0 : Fin 1)) = dZ x4 n * dZ x4 n := by
  rw [val_main_v99_apply, dir_z]
  first | done | rfl
theorem xy_at : val_main_v100 (F := Ideal) x4 (ix2 n (0 : Fin 1)) = dX x4 n * dY x4 n := by
  rw [val_main_v100_apply, dir_x, dir_y]
  first | done | rfl
theorem yz_at : val_main_v101 (F := Ideal) x4 (ix2 n (0 : Fin 1)) = dY x4 n * dZ x4 n := by
  rw [val_main_v101_apply, dir_y, dir_z]
  first | done | rfl
theorem xz_at : val_main_v102 (F := Ideal) x4 (ix2 n (0 : Fin 1)) = dX x4 n * dZ x4 n := by
  rw [val_main_v102_apply, dir_x, dir_z]
  first | done | rfl

/-! A column spread over the three channels reads the column at the row. -/

theorem bc80 : val_main_v80 (F := Ideal) x4 (ix2 n ch) = val_main_v77 (F := Ideal) x4 (ix2 n (0 : Fin 1)) :=
  (val_main_v80_apply x4 _).trans (congrArg (val_main_v77 (F := Ideal) x4) (colidx n _ rfl))
theorem bc87 : val_main_v87 (F := Ideal) x4 (ix2 n ch) = val_main_v84 (F := Ideal) x4 (ix2 n (0 : Fin 1)) :=
  (val_main_v87_apply x4 _).trans (congrArg (val_main_v84 (F := Ideal) x4) (colidx n _ rfl))
theorem bc94 : val_main_v94 (F := Ideal) x4 (ix2 n ch) = val_main_v91 (F := Ideal) x4 (ix2 n (0 : Fin 1)) :=
  (val_main_v94_apply x4 _).trans (congrArg (val_main_v91 (F := Ideal) x4) (colidx n _ rfl))
theorem bc107 : val_main_v107 (F := Ideal) x4 (ix2 n ch) = val_main_v104 (F := Ideal) x4 (ix2 n (0 : Fin 1)) :=
  (val_main_v107_apply x4 _).trans (congrArg (val_main_v104 (F := Ideal) x4) (colidx n _ rfl))
theorem bc114 : val_main_v114 (F := Ideal) x4 (ix2 n ch) = val_main_v111 (F := Ideal) x4 (ix2 n (0 : Fin 1)) :=
  (val_main_v114_apply x4 _).trans (congrArg (val_main_v111 (F := Ideal) x4) (colidx n _ rfl))
theorem bc125 : val_main_v125 (F := Ideal) x4 (ix2 n ch) = val_main_v122 (F := Ideal) x4 (ix2 n (0 : Fin 1)) :=
  (val_main_v125_apply x4 _).trans (congrArg (val_main_v122 (F := Ideal) x4) (colidx n _ rfl))
theorem bc132 : val_main_v132 (F := Ideal) x4 (ix2 n ch) = val_main_v129 (F := Ideal) x4 (ix2 n (0 : Fin 1)) :=
  (val_main_v132_apply x4 _).trans (congrArg (val_main_v129 (F := Ideal) x4) (colidx n _ rfl))
theorem bc140 : val_main_v140 (F := Ideal) x4 (ix2 n ch) = val_main_v137 (F := Ideal) x4 (ix2 n (0 : Fin 1)) :=
  (val_main_v140_apply x4 _).trans (congrArg (val_main_v137 (F := Ideal) x4) (colidx n _ rfl))
theorem bc151 : val_main_v151 (F := Ideal) x4 (ix2 n ch) = val_main_v148 (F := Ideal) x4 (ix2 n (0 : Fin 1)) :=
  (val_main_v151_apply x4 _).trans (congrArg (val_main_v148 (F := Ideal) x4) (colidx n _ rfl))
theorem bc159 : val_main_v159 (F := Ideal) x4 (ix2 n ch) = val_main_v156 (F := Ideal) x4 (ix2 n (0 : Fin 1)) :=
  (val_main_v159_apply x4 _).trans (congrArg (val_main_v156 (F := Ideal) x4) (colidx n _ rfl))
theorem bc171 : val_main_v171 (F := Ideal) x4 (ix2 n ch) = val_main_v168 (F := Ideal) x4 (ix2 n (0 : Fin 1)) :=
  (val_main_v171_apply x4 _).trans (congrArg (val_main_v168 (F := Ideal) x4) (colidx n _ rfl))
theorem bc187 : val_main_v187 (F := Ideal) x4 (ix2 n ch) = val_main_v184 (F := Ideal) x4 (ix2 n (0 : Fin 1)) :=
  (val_main_v187_apply x4 _).trans (congrArg (val_main_v184 (F := Ideal) x4) (colidx n _ rfl))
theorem bc199 : val_main_v199 (F := Ideal) x4 (ix2 n ch) = val_main_v196 (F := Ideal) x4 (ix2 n (0 : Fin 1)) :=
  (val_main_v199_apply x4 _).trans (congrArg (val_main_v196 (F := Ideal) x4) (colidx n _ rfl))
theorem bc208 : val_main_v208 (F := Ideal) x4 (ix2 n ch) = val_main_v205 (F := Ideal) x4 (ix2 n (0 : Fin 1)) :=
  (val_main_v208_apply x4 _).trans (congrArg (val_main_v205 (F := Ideal) x4) (colidx n _ rfl))
theorem bc220 : val_main_v220 (F := Ideal) x4 (ix2 n ch) = val_main_v217 (F := Ideal) x4 (ix2 n (0 : Fin 1)) :=
  (val_main_v220_apply x4 _).trans (congrArg (val_main_v217 (F := Ideal) x4) (colidx n _ rfl))

/-! The factor in front of coefficient k = 1 … 15, at (n, ch): the harmonic polynomial of the direction, in the
    order the operations take it. -/

theorem w1_at : val_main_v80 (F := Ideal) x4 (ix2 n ch) = Spec.w32 0x3EFA2A1C#32 * dY x4 n := by
  rw [bc80, val_main_v77_apply, val_main_v76_apply, val_main_cst_8_apply, dir_y]
  first | done | rfl

theorem w2_at : val_main_v87 (F := Ideal) x4 (ix2 n ch) = Spec.w32 0x3EFA2A1C#32 * dZ x4 n := by
  rw [bc87, val_main_v84_apply, val_main_v83_apply, val_main_cst_9_apply, dir_z]
  first | done | rfl

theorem w3_at : val_main_v94 (F := Ideal) x4 (ix2 n ch) = Spec.w32 0x3EFA2A1C#32 * dX x4 n := by
  rw [bc94, val_main_v91_apply, val_main_v90_apply, val_main_cst_10_apply, dir_x]
  first | done | rfl

theorem w4_at : val_main_v107 (F := Ideal) x4 (ix2 n ch) = Spec.w32 0x3F8BD8A1#32 * (dX x4 n * dY x4 n) := by
  rw [bc107, val_main_v104_apply, val_main_v103_apply, val_main_cst_11_apply, xy_at]
  first | done | rfl

theorem w5_at : val_main_v114 (F := Ideal) x4 (ix2 n ch) = Spec.w32 0xBF8BD8A1#32 * (dY x4 n * dZ x4 n) := by
  rw [bc114, val_main_v111_apply, val_main_v110_apply, val_main_cst_12_apply, yz_at]
  first | done | rfl

theorem w6_at : val_main_v125 (F := Ideal) x4 (ix2 n ch)
    = Spec.w32 0x3EA17B01#32 * ((Spec.w32 0x40000000#32 * (dZ x4 n * dZ x4 n) - dX x4 n * dX x4 n) - dY x4 n * dY x4 n) := by
  rw [bc125, val_main_v122_apply, val_main_v121_apply, val_main_cst_14_apply, val_main_v120_apply, val_main_v119_apply,
    val_main_v118_apply, val_main_v117_apply, val_main_cst_13_apply, zz_at, xx_at, yy_at]
  first | done | rfl

theorem w7_at : val_main_v132 (F := Ideal) x4 (ix2 n ch) = Spec.w32 0xBF8BD8A1#32 * (dX x4 n * dZ x4 n) := by
  rw [bc132, val_main_v129_apply, val_main_v128_apply, val_main_cst_15_apply, xz_at]
  first | done | rfl

theorem w8_at : val_main_v140 (F := Ideal) x4 (ix2 n ch)
    = Spec.w32 0x3F0BD8A1#32 * (dX x4 n * dX x4 n - dY x4 n * dY x4 n) := by
  rw [bc140, val_main_v137_apply, val_main_v136_apply, val_main_cst_16_apply, val_main_v135_apply, xx_at, yy_at]
  first | done | rfl

theorem w9_at : val_main_v151 (F := Ideal) x4 (ix2 n ch)
    = (Spec.w32 0xBF170D19#32 * dY x4 n) * (Spec.w32 0x40400000#32 * (dX x4 n * dX x4 n) - dY x4 n * dY x4 n) := by
  rw [bc151, val_main_v148_apply, val_main_v144_apply, val_main_v143_apply, val_main_cst_17_apply, dir_y,
    val_main_v147_apply, val_main_v146_apply, val_main_v145_apply, val_main_cst_18_apply, xx_at, yy_at]
  first | done | rfl

theorem w10_at : val_main_v159 (F := Ideal) x4 (ix2 n ch)
    = (Spec.w32 0x4038FFC7#32 * (dX x4 n * dY x4 n)) * dZ x4 n := by
  rw [bc159, val_main_v156_apply, val_main_v155_apply, val_main_v154_apply, val_main_cst_19_apply, xy_at, dir_z]
  first | done | rfl

theorem w11_at : val_main_v171 (F := Ideal) x4 (ix2 n ch)
    = (Spec.w32 0xBEEA01E8#32 * dY x4 n)
      * ((Spec.w32 0x40800000#32 * (dZ x4 n * dZ x4 n) - dX x4 n * dX x4 n) - dY x4 n * dY x4 n) := by
  rw [bc171, val_main_v168_apply, val_main_v163_apply, val_main_v162_apply, val_main_cst_20_apply, dir_y,
    val_main_v167_apply, val_main_v166_apply, val_main_v165_apply, val_main_v164_apply, val_main_cst_21_apply,
    zz_at, xx_at, yy_at]
  first | done | rfl

theorem w12_at : val_main_v187 (F := Ideal) x4 (ix2 n ch)
    = (Spec.w32 0x3EBF10F8#32 * dZ x4 n)
      * ((Spec.w32 0x40000000#32 * (dZ x4 n * dZ x4 n) - Spec.w32 0x40400000#32 * (dX x4 n * dX x4 n))
        - Spec.w32 0x40400000#32 * (dY x4 n * dY x4 n)) := by
  rw [bc187, val_main_v184_apply, val_main_v175_apply, val_main_v174_apply, val_main_cst_22_apply, dir_z,
    val_main_v183_apply, val_main_v180_apply, val_main_v177_apply, val_main_v176_apply, val_main_cst_23_apply,
    val_main_v179_apply, val_main_v178_apply, val_main_cst_24_apply, val_main_v182_apply, val_main_v181_apply,
    val_main_cst_25_apply, zz_at, xx_at, yy_at]
  first | done | rfl

theorem w13_at : val_main_v199 (F := Ideal) x4 (ix2 n ch)
    = (Spec.w32 0xBEEA01E8#32 * dX x4 n)
      * ((Spec.w32 0x40800000#32 * (dZ x4 n * dZ x4 n) - dX x4 n * dX x4 n) - dY x4 n * dY x4 n) := by
  rw [bc199, val_main_v196_apply, val_main_v191_apply, val_main_v190_apply, val_main_cst_26_apply, dir_x,
    val_main_v195_apply, val_main_v194_apply, val_main_v193_apply, val_main_v192_apply, val_main_cst_27_apply,
    zz_at, xx_at, yy_at]
  first | done | rfl

theorem w14_at : val_main_v208 (F := Ideal) x4 (ix2 n ch)
    = (Spec.w32 0x3FB8FFC7#32 * dZ x4 n) * (dX x4 n * dX x4 n - dY x4 n * dY x4 n) := by
  rw [bc208, val_main_v205_apply, val_main_v203_apply, val_main_v202_apply, val_main_cst_28_apply, dir_z,
    val_main_v204_apply, xx_at, yy_at]
  first | done | rfl

theorem w15_at : val_main_v220 (F := Ideal) x4 (ix2 n ch)
    = (Spec.w32 0xBF170D19#32 * dX x4 n)
      * ((dX x4 n * dX x4 n - dY x4 n * dY x4 n) - Spec.w32 0x40400000#32 * (dZ x4 n * dZ x4 n)) := by
  rw [bc220, val_main_v217_apply, val_main_v212_apply, val_main_v211_apply, val_main_cst_29_apply, dir_x,
    val_main_v216_apply, val_main_v213_apply, xx_at, yy_at, val_main_v215_apply, val_main_v214_apply,
    val_main_cst_30_apply, zz_at]
  first | done | rfl

/-! ## The sum, the half and the clamp -/

/-- The colour of channel ch of point n. -/
theorem col_at : val_main_v225 (F := Ideal) x2 x3 x4 (ix2 n ch)
    = Spec.col (dX x4 n) (dY x4 n) (dZ x4 n) (x2 (ix3 n (0 : Fin 1) ch)) (fun k => x3 (ix3 n k ch)) := by
  rw [val_main_v225_apply, val_main_call2_v4_apply, val_main_call2_v3_apply, val_main_cst_33_apply,
    val_main_call2_v2_apply, val_main_call2_v1_apply, val_main_call2_v0_apply, val_main_cst_32_apply,
    val_main_v224_apply, val_main_v223_apply, val_main_cst_31_apply,
    val_main_v222_apply, val_main_v210_apply, val_main_v201_apply, val_main_v189_apply, val_main_v173_apply,
    val_main_v161_apply, val_main_v153_apply, val_main_v142_apply, val_main_v134_apply, val_main_v127_apply,
    val_main_v116_apply, val_main_v109_apply, val_main_v96_apply, val_main_v89_apply, val_main_v82_apply,
    val_main_v75_apply, val_main_v74_apply, val_main_cst_7_apply,
    val_main_v81_apply, val_main_v88_apply, val_main_v95_apply, val_main_v108_apply, val_main_v115_apply,
    val_main_v126_apply, val_main_v133_apply, val_main_v141_apply, val_main_v152_apply, val_main_v160_apply,
    val_main_v172_apply, val_main_v188_apply, val_main_v200_apply, val_main_v209_apply, val_main_v221_apply,
    w1_at, w2_at, w3_at, w4_at, w5_at, w6_at, w7_at, w8_at, w9_at, w10_at, w11_at, w12_at, w13_at, w14_at, w15_at,
    sh0_at, sh1_at, sh2_at, sh3_at, sh4_at, sh5_at, sh6_at, sh7_at, sh8_at, sh9_at, sh10_at, sh11_at, sh12_at,
    sh13_at, sh14_at, sh15_at]
  rfl

/-- **The reference's colour array is the specification's.** -/
theorem col_eq (x2 : (⟨S2000000x1x3, .f32⟩ : BufTy).Contents (Elt Ideal)) (x3 : (⟨S2000000x15x3, .f32⟩ : BufTy).Contents (Elt Ideal)) (x4 : (⟨S2000000x3, .f32⟩ : BufTy).Contents (Elt Ideal)) :
    Cert.ReferenceIdeal.ReadP.val_main_v225 (F := Ideal) x2 x3 x4 = Cert.Spec.Gcol x2 x3 x4 := by
  funext i
  obtain ⟨n, ch, rfl⟩ : ∃ (n : Fin 2000000) (ch : Fin 3), i = ix2 n ch := ⟨i 0, i 1, eq_ix2 i⟩
  exact col_at x2 x3 x4 n ch

end Cert.ReferenceIdeal.RefValue

end
-- ==== Proof.RefValue.lean ====
/-
  The reference's two result arrays are the specification's: the covariance (cov_eq) and the colour (col_eq), each
  proved in its own module and gathered here under one name.
-/
import proofs.«139306_j35287451304162_2_alg».proof.Proof.RefCov
import proofs.«139306_j35287451304162_2_alg».proof.Proof.RefCol
-- ==== Proof.lean ====
/-
  The certificate of a kernel that turns two million Gaussians' parameters into covariances and colours, against its
  jnp reference.

  Both programs compute, for every point, the covariance (R · diag s)(R · diag s)ᵀ — s the exponentials of the scale
  logits, R the rotation of the quaternion divided by its clamped length — and the degree-3 spherical-harmonic colour
  of the viewing direction, plus one half, clamped to [0, 1].  The kernel works on channel-major tiles of 128 × 128
  points which the host cuts before the call and joins after it, multiplies by the reciprocal of the clamped length
  and adds the three products of a matrix entry by hand; the reference stays point-major, divides by the clamped
  length, sums the squares and the products with reductions.  At the ideal values the two are one function of the five
  argument arrays, `Cert.Spec.Gcov` and `Cert.Spec.Gcol`: the clamped length is at least a positive constant, so
  dividing by it is multiplying by its reciprocal on every extended real, and a finite sum does not depend on how it
  is associated.  Nothing needs the inputs finite.

  The three frames are the generated ones (the reference's is its run with the results dropped); the idealization
  rewrote nothing, so `preserves` is trivial; `algebraic` sets the kernel's run (Proof/KernelResults.lean) beside the
  reference's run (its stages read index by index in Proof/RefValue.lean).
-/
import proofs.«139306_j35287451304162_2_alg».proof.Defs
import proofs.«139306_j35287451304162_2_alg».proof.Proof.Gen.Kernel
import proofs.«139306_j35287451304162_2_alg».proof.Proof.Gen.Kernel.Frame
import proofs.«139306_j35287451304162_2_alg».proof.Proof.Gen.KernelIdeal
import proofs.«139306_j35287451304162_2_alg».proof.Proof.Gen.KernelIdeal.Frame
import proofs.«139306_j35287451304162_2_alg».proof.Proof.Gen.ReferenceIdeal
import proofs.«139306_j35287451304162_2_alg».proof.Proof.Gen.Pre_finite_inputs
import proofs.«139306_j35287451304162_2_alg».proof.Proof.Spec
import proofs.«139306_j35287451304162_2_alg».proof.Proof.KernelResults
import proofs.«139306_j35287451304162_2_alg».proof.Proof.RefRunPatched
import proofs.«139306_j35287451304162_2_alg».proof.Proof.RefReadPatched
import proofs.«139306_j35287451304162_2_alg».proof.Proof.RefStage
import proofs.«139306_j35287451304162_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

/-- At the ideal values the kernel's two results and the reference's are the same two functions of arguments that
    agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Results.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.RefStage.val_main_v66_eq, Cert.ReferenceIdeal.RefValue.cov_eq, (hagree c).1, (hagree c).2.1]
  · rw [Cert.ReferenceIdeal.RefStage.val_main_v225_eq, Cert.ReferenceIdeal.RefValue.col_eq, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
